-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x22 : Shape := ⟨2, ![100000, 22]⟩
abbrev S2x1600000 : Shape := ⟨2, ![2, 1600000]⟩
abbrev S22x32 : Shape := ⟨2, ![22, 32]⟩
abbrev S32 : Shape := ⟨1, ![32]⟩
abbrev S32x32 : Shape := ⟨2, ![32, 32]⟩
abbrev S64x32 : Shape := ⟨2, ![64, 32]⟩
abbrev S64x1 : Shape := ⟨2, ![64, 1]⟩
abbrev S1 : Shape := ⟨1, ![1]⟩
abbrev S_ : Shape := ⟨0, ![]⟩

class Facts : Prop where
  bcast_S_S100000x22 : S_.BroadcastsInDim S100000x22 (![] : Fin 0 → Fin S100000x22.rank)
  reducesTo_S100000x22_S_d0_1 : S100000x22.ReducesTo [0, 1] S_
  h_S_ : 0 < S_.numel
  bcast_S_S22x32 : S_.BroadcastsInDim S22x32 (![] : Fin 0 → Fin S22x32.rank)
  reducesTo_S22x32_S_d0_1 : S22x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S64x32 .f32) (main_arg7 : FVec F S32 .f32) (main_arg8 : FVec F S64x1 .f32) (main_arg9 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x22 .f32) (main_arg1 : IVec S2x1600000 32) (main_arg2 : FVec F S22x32 .f32) (main_arg3 : FVec F S32 .f32) (main_arg4 : FVec F S32x32 .f32) (main_arg5 : FVec F S32 .f32) (main_arg6 : FVec F S64x32 .f32) (main_arg7 : FVec F S32 .f32) (main_arg8 : FVec F S64x1 .f32) (main_arg9 : FVec F S1 .f32) : IVec S_ 1 :=
  let main_v0 : FVec F S100000x22 .f32 := Host.absf main_arg0
  let main_cst : FVec F S_ .f32 := constant S_ .f32 0x7F800000#32
  let main_v1 : FVec F S100000x22 .f32 := broadcastInDim S100000x22 ![] bcast_S_S100000x22 main_cst
  let main_v2 : IVec S100000x22 1 := cmpf .olt main_v0 main_v1
  let main_c : IVec S_ 1 := constantI S_ 1 1#1
  let main_v3 : IVec S_ 1 := (fun x v => Host.reduce IntOp.andi x v reducesTo_S100000x22_S_d0_1 h_S_) main_v2 main_c
  let main_v4 : FVec F S22x32 .f32 := Host.absf main_arg2
  let main_cst_0 : FVec F S_ .f32 := constant S_ .f32 0x7F800000#32
  let main_v5 : FVec F S22x32 .f32 := broadcastInDim S22x32 ![] bcast_S_S22x32 main_cst_0
  let main_v6 : IVec S22x32 1 := cmpf .olt main_v4 main_v5
  let main_c_1 : IVec S_ 1 := constantI S_ 1 1#1
  let main_v7 : IVec S_ 1 := (fun x v => Host.reduce IntOp.andi x v reducesTo_S22x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S100000x22 : Shape := ⟨2, ![100000, 22]⟩
abbrev S2x1600000 : Shape := ⟨2, ![2, 1600000]⟩
abbrev S22x32 : Shape := ⟨2, ![22, 32]⟩
abbrev S32 : Shape := ⟨1, ![32]⟩
abbrev S32x32 : Shape := ⟨2, ![32, 32]⟩
abbrev S64x32 : Shape := ⟨2, ![64, 32]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x32 : Shape := ⟨2, ![1, 32]⟩
abbrev S1x1 : Shape := ⟨2, ![1, 1]⟩
abbrev S32x1 : Shape := ⟨2, ![32, 1]⟩
abbrev S100000x1 : Shape := ⟨2, ![100000, 1]⟩
abbrev S100000x32 : Shape := ⟨2, ![100000, 32]⟩
abbrev S10000x22 : Shape := ⟨2, ![10000, 22]⟩
abbrev S10000x32 : Shape := ⟨2, ![10000, 32]⟩
abbrev S1700000x32 : Shape := ⟨2, ![1700000, 32]⟩
abbrev S10000x1 : Shape := ⟨2, ![10000, 1]⟩

abbrev nBuf : Space → Nat
  | .hbm => 98
  | .vmem => 30
  | .smem => 0
  | _ => 0

abbrev bufTy : (tb : Table) → Fin (tcTables nBuf tb) → BufTy
  | .hbm, ⟨0, _⟩ => ⟨S100000x22, .f32⟩
  | .hbm, ⟨1, _⟩ => ⟨S2x1600000, .i32⟩
  | .hbm, ⟨2, _⟩ => ⟨S22x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S1x1, .f32⟩
  | .hbm, ⟨57, _⟩ => ⟨S32x32, .f32⟩
  | .hbm, ⟨58, _⟩ => ⟨S32x32, .f32⟩
  | .hbm, ⟨59, _⟩ => ⟨S32x1, .f32⟩
  | .hbm, ⟨60, _⟩ => ⟨S32x1, .f32⟩
  | .hbm, ⟨61, _⟩ => ⟨S100000x1, .f32⟩
  | .hbm, ⟨62, _⟩ => ⟨S100000x32, .f32⟩
  | .hbm, ⟨63, _⟩ => ⟨S100000x32, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x32, .f32⟩
  | .hbm, ⟨73, _⟩ => ⟨S1700000x1, .f32⟩
  | .hbm, ⟨74, _⟩ => ⟨S1700000x32, .f32⟩
  | .hbm, ⟨75, _⟩ => ⟨S1700000x32, .f32⟩
  | .hbm, ⟨76, _⟩ => ⟨S_, .f32⟩
  | .hbm, ⟨77, _⟩ => ⟨S100000x32, .f32⟩
  | .hbm, ⟨78, _⟩ => ⟨S1700000x1, .i32⟩
  | .hbm, ⟨79, _⟩ => ⟨S100000x32, .f32⟩
  | .hbm, ⟨80, _⟩ => ⟨S100000x32, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x32, .f32⟩
  | .hbm, ⟨90, _⟩ => ⟨S1700000x1, .f32⟩
  | .hbm, ⟨91, _⟩ => ⟨S1700000x32, .f32⟩
  | .hbm, ⟨92, _⟩ => ⟨S1700000x32, .f32⟩
  | .hbm, ⟨93, _⟩ => ⟨S_, .f32⟩
  | .hbm, ⟨94, _⟩ => ⟨S100000x32, .f32⟩
  | .hbm, ⟨95, _⟩ => ⟨S1700000x1, .i32⟩
  | .hbm, ⟨96, _⟩ => ⟨S100000x32, .f32⟩
  | .hbm, ⟨97, _⟩ => ⟨S100000x1, .f32⟩
  | .local _ .vmem, ⟨0, _⟩ => ⟨S10000x22, .f32⟩
  | .local _ .vmem, ⟨1, _⟩ => ⟨S10000x22, .f32⟩
  | .local _ .vmem, ⟨2, _⟩ => ⟨S22x32, .f32⟩
  | .local _ .vmem, ⟨3, _⟩ => ⟨S1x32, .f32⟩
  | .local _ .vmem, ⟨4, _⟩ => ⟨S32x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S32x32, .f32⟩
  | .local _ .vmem, ⟨15, _⟩ => ⟨S32x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S1x32, .f32⟩
  | .local _ .vmem, ⟨21, _⟩ => ⟨S10000x32, .f32⟩
  | .local _ .vmem, ⟨22, _⟩ => ⟨S10000x32, .f32⟩
  | .local _ .vmem, ⟨23, _⟩ => ⟨S32x1, .f32⟩
  | .local _ .vmem, ⟨24, _⟩ => ⟨S32x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | .local _ .vmem, ⟨28, _⟩ => ⟨S10000x1, .f32⟩
  | .local _ .vmem, ⟨29, _⟩ => ⟨S10000x1, .f32⟩
  | _, _ => ⟨S100000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41_0 : Ref sig .tc := ⟨.hbm, 62, rfl⟩
abbrev main_v41_1 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S10000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S32_S1x32 : S32.ShapeCasts S1x32
  shapeCasts_S1_S1x1 : S1.ShapeCasts S1x1
  slices_S64x32_S32x32_0_0 : S64x32.Slices ![0, 0] S32x32
  slices_S64x32_S32x32_32_0 : S64x32.Slices ![32, 0] S32x32
  slices_S64x1_S32x1_0_0 : S64x1.Slices ![0, 0] S32x1
  slices_S64x1_S32x1_32_0 : S64x1.Slices ![32, 0] S32x1
  slices_S100000x22_S100000x1_0_1 : S100000x22.Slices ![0, 1] S100000x1
  inb_S10000x22_S10000x22_0_0 : ∀ a, (![0, 0] : Fin 2 → Nat) a + S10000x22.size a ≤ S10000x22.size a
  h_S10000x22 : 0 < S10000x22.numel
  bitsLt_bf16_f32 : FTy.bits .bf16 < FTy.bits .f32
  inb_S22x32_S22x32_0_0 : ∀ a, (![0, 0] : Fin 2 → Nat) a + S22x32.size a ≤ S22x32.size a
  h_S22x32 : 0 < S22x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S32x32_S32x32_0_0 : ∀ a, (![0, 0] : Fin 2 → Nat) a + S32x32.size a ≤ S32x32.size a
  h_S32x32 : 0 < S32x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x22_S22x32_S10000x32_1_0_0_1_n_n_wf : DotDims.WF S10000x22 S22x32 S10000x32 [1] [0] [0] [1] [] []
  dot_S10000x32_S32x32_S10000x32_1_0_0_1_n_n_wf : DotDims.WF S10000x32 S32x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x22.size a ≤ S100000x22.size a
  hwx0_0 : ∀ i : grid0.Coords, EltTy.bits .f32 = 32 ∨ (Rect.block (s := S100000x22) S10000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x32.size a ≤ S22x32.size a
  hwx0_1 : ∀ i : grid0.Coords, EltTy.bits .f32 = 32 ∨ (Rect.block (s := S22x32) S22x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x32.size a ≤ S100000x32.size a
  hwx0_4 : ∀ i : grid0.Coords, EltTy.bits .f32 = 32 ∨ (Rect.block (s := S100000x32) S10000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x1.size a ≤ S32x1.size a
  hwx2_4 : ∀ i : grid2.Coords, EltTy.bits .f32 = 32 ∨ (Rect.block (s := S32x1) S32x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S100000x1.size a
  hwx2_6 : ∀ i : grid2.Coords, EltTy.bits .f32 = 32 ∨ (Rect.block (s := S100000x1) S10000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S100000x1.size a
  hwx2_7 : ∀ i : grid2.Coords, EltTy.bits .f32 = 32 ∨ (Rect.block (s := S100000x1) S10000x1.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x22_S22x32_S10000x32_1_0_0_1_n_n : DotDims S10000x22 S22x32 S10000x32 where
  lhsContracting := [1]
  rhsContracting := [0]
  lhsNonContracting := [0]
  rhsNonContracting := [1]
  lhsBatch := []
  rhsBatch := []
  wf := dot_S10000x22_S22x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S22x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41_0) S10000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41_1) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41_0) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41_0) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S32x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S10000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v69) S10000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x22 : Shape := ⟨2, ![100000, 22]⟩
abbrev S2x1600000 : Shape := ⟨2, ![2, 1600000]⟩
abbrev S22x32 : Shape := ⟨2, ![22, 32]⟩
abbrev S32 : Shape := ⟨1, ![32]⟩
abbrev S32x32 : Shape := ⟨2, ![32, 32]⟩
abbrev S64x32 : Shape := ⟨2, ![64, 32]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1x32 : Shape := ⟨2, ![1, 32]⟩
abbrev S1700000x32 : Shape := ⟨2, ![1700000, 32]⟩
abbrev S100000x64 : Shape := ⟨2, ![100000, 64]⟩
abbrev S100000x1 : Shape := ⟨2, ![100000, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x22, .f32⟩
  | 1 => ⟨S2x1600000, .i32⟩
  | 2 => ⟨S22x32, .f32⟩
  | 3 => ⟨S32, .f32⟩
  | 4 => ⟨S32x32, .f32⟩
  | 5 => ⟨S32, .f32⟩
  | 6 => ⟨S64x32, .f32⟩
  | 7 => ⟨S32, .f32⟩
  | 8 => ⟨S64x1, .f32⟩
  | 9 => ⟨S1, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000x32, .f32⟩
  | 35 => ⟨S1x32, .f32⟩
  | 36 => ⟨S100000x32, .f32⟩
  | 37 => ⟨S100000x32, .f32⟩
  | 38 => ⟨S100000x32, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x32, .f32⟩
  | 67 => ⟨S1700000x1, .f32⟩
  | 68 => ⟨S1700000x32, .f32⟩
  | 69 => ⟨S1700000x32, .f32⟩
  | 70 => ⟨S_, .f32⟩
  | 71 => ⟨S100000x32, .f32⟩
  | 72 => ⟨S1700000x1, .i32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x64, .f32⟩
  | 81 => ⟨S100000x32, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x32, .f32⟩
  | 110 => ⟨S1700000x1, .f32⟩
  | 111 => ⟨S1700000x32, .f32⟩
  | 112 => ⟨S1700000x32, .f32⟩
  | 113 => ⟨S_, .f32⟩
  | 114 => ⟨S100000x32, .f32⟩
  | 115 => ⟨S1700000x1, .i32⟩
  | 116 => ⟨S100000x32, .f32⟩
  | 117 => ⟨S1x32, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S100000x64, .f32⟩
  | 124 => ⟨S100000x1, .f32⟩
  | 125 => ⟨S1x1, .f32⟩
  | 126 => ⟨S100000x1, .f32⟩
  | 127 => ⟨S100000x1, .f32⟩
  | _ => ⟨S100000x22, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | _, _ => ⟨S100000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S100000x22_S100000x1_0_1 : S100000x22.Slices ![0, 1] S100000x1
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  dot_S100000x22_S22x32_S100000x32_1_0_0_1_n_n_wf : DotDims.WF S100000x22 S22x32 S100000x32 [1] [0] [0] [1] [] []
  dot_S100000x32_S32x32_S100000x32_1_0_0_1_n_n_wf : DotDims.WF S100000x32 S32x32 S100000x32 [1] [0] [0] [1] [] []
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x64_S64x32_S100000x32_1_0_0_1_n_n_wf : DotDims.WF S100000x64 S64x32 S100000x32 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x22_S22x32_S100000x32_1_0_0_1_n_n : DotDims S100000x22 S22x32 S100000x32 where
  lhsContracting := [1]
  rhsContracting := [0]
  lhsNonContracting := [0]
  rhsNonContracting := [1]
  lhsBatch := []
  rhsBatch := []
  wf := dot_S100000x22_S22x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run, with its result named.

  The program's @main is three kernel regions among five stretches of host operations.  The contents of the
  TensorCore's buffers at each boundary between segments are a fold from the launch memory: a stretch of host
  operations applies them in order, and a region replaces each of its windows' arrays by what its write-backs
  leave.  Every weakly fair execution terminates without a fault with every unscoped buffer at the last boundary's
  contents; read at the result buffer and at the ten argument buffers this says: the result ends at the fold's
  value at its reference, and the arguments end as launched.
-/
import proofs.«180521_j28638841930196_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.Spec.lean ====
/-
  The dense stages of a two-layer graph convolution, as whole-array functions over the extended reals.

  A matrix with R rows and C columns is a function of the index pairs.  The network's dense stages are:
    * `times x w`      — the product of the rows of `x` with the matrix `w`;
    * `affine x w b`   — that product plus the row vector `b` on every row (the embedding);
    * `act a b`        — `max (a + b) 0` with the row vector `b` on every row (bias and rectifier after an aggregation);
    * `mix a h wa wb`  — `a · wa + h · wb`: the product of the rows of `[a | h]` with the matrix whose upper half is
                         `wa` and lower half `wb`, written as its two halves;
    * `readout a h wa wb bp xc` — `max ((a · wa + h · wb + bp) + xc) 0`, one column.
  Each is ROW-LOCAL: a band of rows of the result is the function of that band of rows of the row-wise operands
  (`rowsAt`), which is why a kernel may compute it band by band.  `sum_halves` is the one algebraic law the
  certificate uses: a sum over 32 + 32 terms is the sum of its first 32 and of its last 32, valid in any commutative
  monoid, hence with infinite terms as well.
-/
import Idealize.ShloMosaic.PureOps.Ideal
import Idealize.ShloMosaic.Lib.ValueIdx

noncomputable section

open scoped BigOperators

namespace Cert.GraphConv

open Idealize.ShloMosaic Idealize.ShloMosaic.ValueIdx

/-- A matrix of extended reals with `R` rows and `C` columns. -/
abbrev Mat (R C : Nat) : Type := (⟨2, ![R, C]⟩ : Shape).Idx → EReal

variable {R K C : Nat}

/-- The word both programs write for the rectifier's zero; it is never evaluated. -/
abbrev zeroWord : EReal := Ideal.ofBits .f32 0x00000000#32

/-- Rows of `x` times the matrix `w`. -/
def times (x : Mat R K) (w : Mat K C) : Mat R C := fun i => ∑ k : Fin K, x (ix2 (i 0) k) * w (ix2 k (i 1))

/-- Rows of `x` times `w`, plus the row vector `b`. -/
def affine (x : Mat R K) (w : Mat K C) (b : Mat 1 C) : Mat R C := fun i => times x w i + b (ix2 (0 : Fin 1) (i 1))

/-- The row vector `b` added to every row of `a`, then the rectifier. -/
def act (a : Mat R C) (b : Mat 1 C) : Mat R C := fun i => max (a i + b (ix2 (0 : Fin 1) (i 1))) zeroWord

/-- `a · wa + h · wb`. -/
def mix (a h : Mat R K) (wa wb : Mat K C) : Mat R C := fun i => times a wa i + times h wb i

/-- `max ((a · wa + h · wb + bp) + xc) 0`, a single column. -/
def readout (a h : Mat R K) (wa wb : Mat K 1) (bp : Mat 1 1) (xc : Mat R 1) : Mat R 1 :=
  fun i => max (((times a wa i + times h wb i) + bp (ix2 (0 : Fin 1) (i 1))) + xc i) zeroWord

/-- The band of `r` rows of `x` starting at row `base`. -/
def rowsAt (r base : Nat) (h : base + r ≤ R) (x : Mat R C) : Mat r C :=
  fun y => x (ix2 ⟨base + (y 0).val, by have := idx2_lt0 y; omega⟩ (y 1))

theorem rowsAt_apply (r base : Nat) (h : base + r ≤ R) (x : Mat R C) (p : Fin r) (q : Fin C) :
    rowsAt r base h x (ix2 p q) = x (ix2 ⟨base + p.val, by have := p.isLt; omega⟩ q) := rfl

/-! ## Row-locality -/

theorem times_rowsAt (r base : Nat) (h : base + r ≤ R) (x : Mat R K) (w : Mat K C) :
    times (rowsAt r base h x) w = rowsAt r base h (times x w) := rfl

theorem affine_rowsAt (r base : Nat) (h : base + r ≤ R) (x : Mat R K) (w : Mat K C) (b : Mat 1 C) :
    affine (rowsAt r base h x) w b = rowsAt r base h (affine x w b) := rfl

theorem act_rowsAt (r base : Nat) (h : base + r ≤ R) (a : Mat R C) (b : Mat 1 C) :
    act (rowsAt r base h a) b = rowsAt r base h (act a b) := rfl

theorem mix_rowsAt (r base : Nat) (h : base + r ≤ R) (a x : Mat R K) (wa wb : Mat K C) :
    mix (rowsAt r base h a) (rowsAt r base h x) wa wb = rowsAt r base h (mix a x wa wb) := rfl

theorem readout_rowsAt (r base : Nat) (h : base + r ≤ R) (a x : Mat R K) (wa wb : Mat K 1) (bp : Mat 1 1) (xc : Mat R 1) :
    readout (rowsAt r base h a) (rowsAt r base h x) wa wb bp (rowsAt r base h xc) = rowsAt r base h (readout a x wa wb bp xc) := rfl

/-! ## The whole network, over any aggregation -/

/-- The network's result from its dense stages and an aggregation `agg` of node arrays: embed, aggregate the
    first layer's product, rectify, mix with the embedding, aggregate, rectify, read out. -/
def network {N : Nat} (agg : Mat N 32 → Mat N 32) (x : Mat N 22) (we : Mat 22 32) (be : Mat 1 32) (w1 : Mat 32 32)
    (b1 : Mat 1 32) (w2a w2b : Mat 32 32) (b2 : Mat 1 32) (wpa wpb : Mat 32 1) (bp : Mat 1 1) (xc : Mat N 1) : Mat N 1 :=
  readout (act (agg (mix (act (agg (times (affine x we be) w1)) b1) (affine x we be) w2a w2b)) b2) (affine x we be)
    wpa wpb bp xc

/-- A vector as a one-row matrix. -/
def rowOf (b : (⟨1, ![C]⟩ : Shape).Idx → EReal) : Mat 1 C := fun i => b (ix1 (i 1))

/-- The first `n` rows of a matrix of `n + n'` rows. -/
def upper {n n' : Nat} (w : Mat (n + n') C) : Mat n C := fun i => w (ix2 (Fin.castAdd n' (i 0)) (i 1))

/-- The last `n'` rows of a matrix of `n + n'` rows. -/
def lower {n n' : Nat} (w : Mat (n + n') C) : Mat n' C := fun i => w (ix2 (Fin.natAdd n (i 0)) (i 1))

/-! ## A sum over 32 + 32 terms -/

/-- A sum over `n + n'` terms is the sum of its first `n` and of its last `n'`. -/
theorem sum_halves {n n' : Nat} (f : Fin (n + n') → EReal) :
    ∑ k : Fin (n + n'), f k = ∑ k : Fin n, f (Fin.castAdd n' k) + ∑ k : Fin n', f (Fin.natAdd n k) :=
  Fin.sum_univ_add f

end Cert.GraphConv

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.Tiles.lean ====
/-
  What each kernel body computes on one block, at the ideal instance.

  On a band of 10000 rows the first body stores `x · We + be` and the product of that with `W1`; the second stores
  `max (agg + b) 0 · Wa + h · Wb`; the third `max ((max (agg + b) 0 · wa + h · wb + bp) + xc) 0`.  A change of float
  format is the identity, a product accumulated into the zero array is the plain sum over the contracted index, a
  row vector broadcast down the rows reads its one row, and a cast to the same shape is the identity.
-/
import proofs.«180521_j28638841930196_1_alg».proof.Proof.Gen.KernelIdeal.Skeleton
import proofs.«180521_j28638841930196_1_alg».proof.Proof.Spec
import proofs.«180521_j28638841930196_1_alg».proof.Proof.LibMatRows
import Idealize.ShloMosaic.Lib.ValueLayout
import Idealize.ShloMosaic.Lib.Pipeline.Value

noncomputable section

open scoped BigOperators

namespace Cert.KernelIdeal.Tiles

open Cert.KernelIdeal Cert.KernelIdeal.Gen Cert.GraphConv
open Idealize.ShloMosaic Idealize.ShloMosaic.ValueIdx

variable {R K C : Nat}

/-- A row vector, cast to its own shape and broadcast down `R` rows, reads its one row. -/
theorem bias_row (b : FVec Ideal ⟨2, ![1, C]⟩ .f32) (h1 : (⟨2, ![1, C]⟩ : Shape).ShapeCasts ⟨2, ![1, C]⟩)
    (h2 : (⟨2, ![1, C]⟩ : Shape).Broadcasts ⟨2, ![R, C]⟩) (p : Fin R) (q : Fin C) :
    broadcastTo ⟨2, ![R, C]⟩ (shapeCast ⟨2, ![1, C]⟩ b h1) h2 (ix2 p q) = b (ix2 (0 : Fin 1) q) := by
  rw [shapeCast_self]
  exact broadcastTo_1b_ab_apply b h2 p q

/-- A product into the zero array of operands passed through a change of format and a cast to their own shape. -/
theorem product_tile (l : FVec Ideal ⟨2, ![R, K]⟩ .f32) (w : FVec Ideal ⟨2, ![K, C]⟩ .f32)
    (hw : (⟨2, ![K, C]⟩ : Shape).ShapeCasts ⟨2, ![K, C]⟩) (d : DotDims ⟨2, ![R, K]⟩ ⟨2, ![K, C]⟩ ⟨2, ![R, C]⟩)
    (hd : d = DotDims.plain R K C) (p : Fin R) (q : Fin C) :
    matmul d none (truncf .bf16 l (by decide)) (truncf .bf16 (shapeCast ⟨2, ![K, C]⟩ w hw) (by decide))
        (constant (F := Ideal) ⟨2, ![R, C]⟩ .f32 0x00000000#32) (ix2 p q)
      = times (R := R) (K := K) (C := C) l w (ix2 p q) := by
  subst hd
  rw [shapeCast_self]
  exact MatRows.matmul_plain_apply none _ _ p q

/-- The bias and rectifier on a block. -/
theorem act_tile (a : FVec Ideal ⟨2, ![R, C]⟩ .f32) (b : FVec Ideal ⟨2, ![1, C]⟩ .f32)
    (ha : (⟨2, ![R, C]⟩ : Shape).ShapeCasts ⟨2, ![R, C]⟩) (h1 : (⟨2, ![1, C]⟩ : Shape).ShapeCasts ⟨2, ![1, C]⟩)
    (h2 : (⟨2, ![1, C]⟩ : Shape).Broadcasts ⟨2, ![R, C]⟩) :
    maximumf (addf (shapeCast ⟨2, ![R, C]⟩ a ha) (broadcastTo ⟨2, ![R, C]⟩ (shapeCast ⟨2, ![1, C]⟩ b h1) h2))
        (broadcast ⟨2, ![R, C]⟩ (Scalar.ofBits (F := Ideal) .f32 0x00000000#32))
      = act (R := R) (C := C) a b := by
  funext j
  obtain ⟨p, q, rfl⟩ : ∃ (p : Fin R) (q : Fin C), j = ix2 p q := ⟨j 0, j 1, eq_ix2 j⟩
  rw [shapeCast_self]
  show max (a (ix2 p q) + broadcastTo ⟨2, ![R, C]⟩ (shapeCast ⟨2, ![1, C]⟩ b h1) h2 (ix2 p q)) _ = max (a (ix2 p q) + b (ix2 (0 : Fin 1) q)) _
  rw [bias_row]
  rfl

/-- The first body's first store: the embedding of the block's rows. -/
theorem embed_tile (v0 : Vec Ideal S10000x22 .f32) (v2 : Vec Ideal S22x32 .f32) (v5 : Vec Ideal S1x32 .f32) :
    k0_pay1 v0 v2 v5 = affine (R := 10000) (K := 22) (C := 32) v0 v2 v5 := by
  funext j
  obtain ⟨p, q, rfl⟩ : ∃ (p : Fin 10000) (q : Fin 32), j = ix2 p q := ⟨j 0, j 1, eq_ix2 j⟩
  unfold k0_pay1
  rw [addf_apply]
  refine congrArg₂ (· + ·) ?_ ?_
  · exact MatRows.matmul_plain_apply none _ _ p q
  · exact bias_row v5 _ _ p q

/-- The first body's second store: the embedded rows times the first layer's weights. -/
theorem embed_w1_tile (v0 : Vec Ideal S10000x22 .f32) (v2 : Vec Ideal S22x32 .f32) (v5 : Vec Ideal S1x32 .f32)
    (v10 : Vec Ideal S32x32 .f32) :
    k0_pay2 v0 v2 v5 v10 = times (R := 10000) (K := 32) (C := 32) (affine (R := 10000) (K := 22) (C := 32) v0 v2 v5) v10 := by
  funext j
  obtain ⟨p, q, rfl⟩ : ∃ (p : Fin 10000) (q : Fin 32), j = ix2 p q := ⟨j 0, j 1, eq_ix2 j⟩
  unfold k0_pay2
  rw [embed_tile]
  exact MatRows.matmul_plain_apply none _ _ p q

/-- The second body's store: the rectified aggregate times the upper weights plus the embedded rows times the lower. -/
theorem layer_tile (v0 : Vec Ideal S10000x32 .f32) (v2 : Vec Ideal S1x32 .f32) (v8 : Vec Ideal S10000x32 .f32)
    (v10 : Vec Ideal S32x32 .f32) (v13 : Vec Ideal S32x32 .f32) :
    k1_pay1 v0 v2 v8 v10 v13
      = mix (R := 10000) (K := 32) (C := 32) (act (R := 10000) (C := 32) v0 v2) v8 v10 v13 := by
  funext j
  obtain ⟨p, q, rfl⟩ : ∃ (p : Fin 10000) (q : Fin 32), j = ix2 p q := ⟨j 0, j 1, eq_ix2 j⟩
  unfold k1_pay1
  rw [addf_apply, act_tile, shapeCast_self (v := v8)]
  refine congrArg₂ (· + ·) ?_ ?_
  · exact product_tile _ v10 _ _ rfl p q
  · exact product_tile v8 v13 _ _ rfl p q

/-- The third body's store: the readout of the block's rows. -/
theorem readout_tile (v0 : Vec Ideal S10000x32 .f32) (v2 : Vec Ideal S1x32 .f32) (v8 : Vec Ideal S10000x32 .f32)
    (v10 : Vec Ideal S32x1 .f32) (v13 : Vec Ideal S32x1 .f32) (v21 : Vec Ideal S1x1 .f32) (v25 : Vec Ideal S10000x1 .f32) :
    k2_pay1 v0 v2 v8 v10 v13 v21 v25
      = readout (R := 10000) (K := 32) (act (R := 10000) (C := 32) v0 v2) v8 v10 v13 v21 v25 := by
  funext j
  obtain ⟨p, q, rfl⟩ : ∃ (p : Fin 10000) (q : Fin 1), j = ix2 p q := ⟨j 0, j 1, eq_ix2 j⟩
  unfold k2_pay1
  rw [act_tile, shapeCast_self (v := v8), shapeCast_self (v := v25)]
  show max (((_ + _) + _) + v25 (ix2 p q)) _ = max (((_ + _) + _) + v25 (ix2 p q)) _
  refine congrArg₂ max (congrArg₂ (· + ·) (congrArg₂ (· + ·) (congrArg₂ (· + ·) ?_ ?_) ?_) rfl) rfl
  · exact product_tile _ v10 _ _ rfl p q
  · exact product_tile v8 v13 _ _ rfl p q
  · exact bias_row v21 _ _ p q

end Cert.KernelIdeal.Tiles

end
-- ==== Proof.Region0.lean ====
/-
  The first kernel region, read as whole arrays.

  The region runs the embedding body at ten grid points.  Point `t` stages rows `10000 t … 10000 t + 9999` of the
  node features and the whole of the two weight matrices and of the bias row, and writes back the same band of rows
  of each of its two results.  A band of rows of `x · We + be` is that function of the band of rows of `x`, and
  likewise for its product with `W1`; the ten bands tile the hundred thousand rows.  So, whatever the buffers hold
  when the region is entered, its two result arrays end at `x · We + be` and at `(x · We + be) · W1` of the arrays
  it reads.
-/
import proofs.«180521_j28638841930196_1_alg».proof.Proof.Gen.KernelIdeal.Frame
import proofs.«180521_j28638841930196_1_alg».proof.Proof.Tiles
import Idealize.ShloMosaic.Lib.Pipeline.Value

set_option maxRecDepth 16384

noncomputable section

open scoped BigOperators

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of ten. -/
theorem point_lt (t : Fin cfg0.N) : t.val < 10 := by
  have h := t.isLt
  have e : cfg0.N = 10 := N_0
  omega

/-- The printed index maps over the grid: the row windows' block index is the point, every other index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Window 0's block at point `t` of any array: its rows `10000 t …`. -/
theorem read_rows_0 (t : Fin cfg0.N) (G : Mat 100000 22) :
    ((cfg0.win 0).blk t).view.read (Elt Ideal) G
      = rowsAt 10000 (t.val * 10000) (by have := point_lt t; omega) G := by
  funext y
  rw [View.read_apply]
  show G _ = G _
  refine congrArg G (funext fun a => Fin.ext ?_)
  obtain ⟨e0, e1, -⟩ := index_facts t
  match a with
  | ⟨0, _⟩ => show win0_0.index t (0 : Fin 2) * 10000 + 1 * (y 0).val = t.val * 10000 + (y 0).val; rw [e0]; omega
  | ⟨1, _⟩ => show win0_0.index t (1 : Fin 2) * 22 + 1 * (y 1).val = (y 1).val; rw [e1]; omega

/-- Window 4's block at point `t` of any array: its rows `10000 t …`. -/
theorem read_rows_4 (t : Fin cfg0.N) (G : Mat 100000 32) :
    ((cfg0.win 4).blk t).view.read (Elt Ideal) G
      = rowsAt 10000 (t.val * 10000) (by have := point_lt t; omega) G := by
  funext y
  rw [View.read_apply]
  show G _ = G _
  refine congrArg G (funext fun a => Fin.ext ?_)
  obtain ⟨-, -, -, -, -, -, -, -, e0, e1, -⟩ := index_facts t
  match a with
  | ⟨0, _⟩ => show win0_4.index t (0 : Fin 2) * 10000 + 1 * (y 0).val = t.val * 10000 + (y 0).val; rw [e0]; omega
  | ⟨1, _⟩ => show win0_4.index t (1 : Fin 2) * 32 + 1 * (y 1).val = (y 1).val; rw [e1]; omega

/-- Window 5's block at point `t` of any array: its rows `10000 t …`. -/
theorem read_rows_5 (t : Fin cfg0.N) (G : Mat 100000 32) :
    ((cfg0.win 5).blk t).view.read (Elt Ideal) G
      = rowsAt 10000 (t.val * 10000) (by have := point_lt t; omega) G := by
  funext y
  rw [View.read_apply]
  show G _ = G _
  refine congrArg G (funext fun a => Fin.ext ?_)
  obtain ⟨-, -, -, -, -, -, -, -, -, -, e0, e1⟩ := index_facts t
  match a with
  | ⟨0, _⟩ => show win0_5.index t (0 : Fin 2) * 10000 + 1 * (y 0).val = t.val * 10000 + (y 0).val; rw [e0]; omega
  | ⟨1, _⟩ => show win0_5.index t (1 : Fin 2) * 32 + 1 * (y 1).val = (y 1).val; rw [e1]; omega

/-- Window 1's block at every point is its whole array. -/
theorem read_whole_1 (t : Fin cfg0.N) (G : Mat 22 32) : ((cfg0.win 1).blk t).view.read (Elt Ideal) G = G := by
  funext y
  rw [View.read_apply]
  show G _ = G _
  refine congrArg G (funext fun a => Fin.ext ?_)
  obtain ⟨-, -, e0, e1, -⟩ := index_facts t
  match a with
  | ⟨0, _⟩ => show win0_1.index t (0 : Fin 2) * 22 + 1 * (y 0).val = (y 0).val; rw [e0]; omega
  | ⟨1, _⟩ => show win0_1.index t (1 : Fin 2) * 32 + 1 * (y 1).val = (y 1).val; rw [e1]; omega

/-- Window 2's block at every point is its whole array. -/
theorem read_whole_2 (t : Fin cfg0.N) (G : Mat 1 32) : ((cfg0.win 2).blk t).view.read (Elt Ideal) G = G := by
  funext y
  rw [View.read_apply]
  show G _ = G _
  refine congrArg G (funext fun a => Fin.ext ?_)
  obtain ⟨-, -, -, -, e0, e1, -⟩ := index_facts t
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- Window 3's block at every point is its whole array. -/
theorem read_whole_3 (t : Fin cfg0.N) (G : Mat 32 32) : ((cfg0.win 3).blk t).view.read (Elt Ideal) G = G := by
  funext y
  rw [View.read_apply]
  show G _ = G _
  refine congrArg G (funext fun a => Fin.ext ?_)
  obtain ⟨-, -, -, -, -, -, e0, e1, -⟩ := index_facts t
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

/-! ## The input blocks the body finds -/

theorem block_x (c : Dev nD) (t : Fin cfg0.N) :
    iblk0 V c 0 t = rowsAt 10000 (t.val * 10000) (by have := point_lt t; omega) (V c main_arg0 : Mat 100000 22) :=
  read_rows_0 t _
theorem block_we (c : Dev nD) (t : Fin cfg0.N) : iblk0 V c 1 t = (V c main_arg2 : Mat 22 32) := read_whole_1 t _
theorem block_be (c : Dev nD) (t : Fin cfg0.N) : iblk0 V c 2 t = (V c main_v32 : Mat 1 32) := read_whole_2 t _
theorem block_w1 (c : Dev nD) (t : Fin cfg0.N) : iblk0 V c 3 t = (V c main_arg4 : Mat 32 32) := read_whole_3 t _

/-! ## What a point writes back -/

/-- The embedding of the whole feature array, as the region finds its operands. -/
abbrev embedded (c : Dev nD) : Mat 100000 32 :=
  affine (R := 100000) (K := 22) (C := 32) (V c main_arg0) (V c main_arg2) (V c main_v32)

/-- Point `t` writes back, through window 4, its band of rows of the embedding. -/
theorem flushed_4 (c : Dev nD) (t : Fin cfg0.N) :
    (dat0 V c).flushed 4 t = ((cfg0.win 4).blk t).view.read (Elt Ideal) (embedded V c) := by
  show (cfg0.win 4).cut (grid0.coords t) ((dat0 V c).after 4 t) = _
  rw [after0_4]
  unfold out0_4
  rw [View.canon_unit_zero hz]
  simp only [View.ld_unit_zero (S := S10000x22) hz, View.ld_unit_zero (S := S22x32) hz, View.ld_unit_zero (S := S1x32) hz]
  rw [Tiles.embed_tile, block_x, block_we, block_be, read_rows_4, affine_rowsAt]
  rfl

/-- Point `t` writes back, through window 5, its band of rows of the embedding times the first layer's weights. -/
theorem flushed_5 (c : Dev nD) (t : Fin cfg0.N) :
    (dat0 V c).flushed 5 t
      = ((cfg0.win 5).blk t).view.read (Elt Ideal) (times (R := 100000) (K := 32) (C := 32) (embedded V c) (V c main_arg4)) := by
  show (cfg0.win 5).cut (grid0.coords t) ((dat0 V c).after 5 t) = _
  rw [after0_5]
  unfold out0_5
  rw [View.canon_unit_zero hz]
  simp only [View.ld_unit_zero (S := S10000x22) hz, View.ld_unit_zero (S := S22x32) hz, View.ld_unit_zero (S := S1x32) hz,
    View.ld_unit_zero (S := S32x32) hz]
  rw [Tiles.embed_w1_tile, block_x, block_we, block_be, block_w1, read_rows_5, affine_rowsAt, times_rowsAt]
  rfl

/-! ## The ten bands tile the rows -/

/-- Every index of a result array is in the block of the point that holds its row. -/
theorem covered_4 (i : S100000x32.Idx) :
    ∃ t : Fin cfg0.N, (cfg0.win 4).flush t = true ∧ i ∈ ((cfg0.win 4).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by rw [hN]; omega⟩, rfl⟩
  refine ⟨t, flush0_4 t, ?_⟩
  show i ∈ ((View.whole main_v41_0).slice (win0_4.rect t)).set
  rw [View.set_slice_whole, Rect.mem_set_unit]
  obtain ⟨-, -, -, -, -, -, -, -, e0, e1, -⟩ := index_facts t
  intro a
  match a with
  | ⟨0, _⟩ =>
    show win0_4.index t (0 : Fin 2) * 10000 ≤ (i 0).val ∧ (i 0).val < win0_4.index t (0 : Fin 2) * 10000 + 10000
    rw [e0, ht]; omega
  | ⟨1, _⟩ =>
    show win0_4.index t (1 : Fin 2) * 32 ≤ (i 1).val ∧ (i 1).val < win0_4.index t (1 : Fin 2) * 32 + 32
    rw [e1]; omega

theorem covered_5 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by rw [hN]; omega⟩, rfl⟩
  refine ⟨t, flush0_5 t, ?_⟩
  show i ∈ ((View.whole main_v41_1).slice (win0_5.rect t)).set
  rw [View.set_slice_whole, Rect.mem_set_unit]
  obtain ⟨-, -, -, -, -, -, -, -, -, -, e0, e1⟩ := index_facts t
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 32 ≤ (i 1).val ∧ (i 1).val < win0_5.index t (1 : Fin 2) * 32 + 32
    rw [e1]; omega

/-! ## The two result arrays after the region -/

/-- The first result array ends at the embedding of the feature array. -/
theorem final_4 (c : Dev nD) : (dat0 V c).arrAt 4 cfg0.N = embedded V c :=
  (dat0 V c).arrAt_eq_of_cover 4 (embedded V c) (fun t _ => flushed_4 V c t) covered_4

/-- The second result array ends at the embedding times the first layer's weights. -/
theorem final_5 (c : Dev nD) :
    (dat0 V c).arrAt 5 cfg0.N = times (R := 100000) (K := 32) (C := 32) (embedded V c) (V c main_arg4) :=
  (dat0 V c).arrAt_eq_of_cover 5 _ (fun t _ => flushed_5 V c t) covered_5

end Cert.KernelIdeal.Region0

end
-- ==== Proof.Region1.lean ====
/-
  The second kernel region, read as whole arrays.

  Point `t` stages rows `10000 t …` of the first aggregate and of the embedding, and the whole of the bias row and
  of the two halves of the second layer's weights; it writes back the same band of rows of
  `max (agg + b) 0 · Wa + h · Wb`.  That function is row-local and the ten bands tile the rows, so the result array
  ends at it, of whatever arrays the region finds.
-/
import proofs.«180521_j28638841930196_1_alg».proof.Proof.Gen.KernelIdeal.Frame
import proofs.«180521_j28638841930196_1_alg».proof.Proof.Tiles
import Idealize.ShloMosaic.Lib.Pipeline.Value

set_option maxRecDepth 16384

noncomputable section

open scoped BigOperators

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of ten. -/
theorem point_lt (t : Fin cfg1.N) : t.val < 10 := by
  have h := t.isLt
  have e : cfg1.N = 10 := N_1
  omega

/-- The printed index maps over the grid: a row window's block index is the point, every other index is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` of any array: its rows `10000 t …`. -/
theorem read_rows_0 (t : Fin cfg1.N) (G : Mat 100000 32) :
    ((cfg1.win 0).blk t).view.read (Elt Ideal) G
      = rowsAt 10000 (t.val * 10000) (by have := point_lt t; omega) G := by
  funext y
  rw [View.read_apply]
  show G _ = G _
  refine congrArg G (funext fun a => Fin.ext ?_)
  obtain ⟨e0, e1, -⟩ := index_facts t
  match a with
  | ⟨0, _⟩ => show win1_0.index t (0 : Fin 2) * 10000 + 1 * (y 0).val = t.val * 10000 + (y 0).val; rw [e0]; omega
  | ⟨1, _⟩ => show win1_0.index t (1 : Fin 2) * 32 + 1 * (y 1).val = (y 1).val; rw [e1]; omega

/-- Window 1's block at every point is its whole array. -/
theorem read_whole_1 (t : Fin cfg1.N) (G : Mat 1 32) : ((cfg1.win 1).blk t).view.read (Elt Ideal) G = G := by
  funext y
  rw [View.read_apply]
  show G _ = G _
  refine congrArg G (funext fun a => Fin.ext ?_)
  obtain ⟨-, -, e0, e1, -⟩ := index_facts t
  match a with
  | ⟨0, _⟩ => show win1_1.index t (0 : Fin 2) * 1 + 1 * (y 0).val = (y 0).val; rw [e0]; omega
  | ⟨1, _⟩ => show win1_1.index t (1 : Fin 2) * 32 + 1 * (y 1).val = (y 1).val; rw [e1]; omega

/-- Window 2's block at point `t` of any array: its rows `10000 t …`. -/
theorem read_rows_2 (t : Fin cfg1.N) (G : Mat 100000 32) :
    ((cfg1.win 2).blk t).view.read (Elt Ideal) G
      = rowsAt 10000 (t.val * 10000) (by have := point_lt t; omega) G := by
  funext y
  rw [View.read_apply]
  show G _ = G _
  refine congrArg G (funext fun a => Fin.ext ?_)
  obtain ⟨-, -, -, -, e0, e1, -⟩ := index_facts t
  match a with
  | ⟨0, _⟩ => show win1_2.index t (0 : Fin 2) * 10000 + 1 * (y 0).val = t.val * 10000 + (y 0).val; rw [e0]; omega
  | ⟨1, _⟩ => show win1_2.index t (1 : Fin 2) * 32 + 1 * (y 1).val = (y 1).val; rw [e1]; omega

/-- Window 3's block at every point is its whole array. -/
theorem read_whole_3 (t : Fin cfg1.N) (G : Mat 32 32) : ((cfg1.win 3).blk t).view.read (Elt Ideal) G = G := by
  funext y
  rw [View.read_apply]
  show G _ = G _
  refine congrArg G (funext fun a => Fin.ext ?_)
  obtain ⟨-, -, -, -, -, -, e0, e1, -⟩ := index_facts t
  match a with
  | ⟨0, _⟩ => show win1_3.index t (0 : Fin 2) * 32 + 1 * (y 0).val = (y 0).val; rw [e0]; omega
  | ⟨1, _⟩ => show win1_3.index t (1 : Fin 2) * 32 + 1 * (y 1).val = (y 1).val; rw [e1]; omega

/-- Window 4's block at every point is its whole array. -/
theorem read_whole_4 (t : Fin cfg1.N) (G : Mat 32 32) : ((cfg1.win 4).blk t).view.read (Elt Ideal) G = G := by
  funext y
  rw [View.read_apply]
  show G _ = G _
  refine congrArg G (funext fun a => Fin.ext ?_)
  obtain ⟨-, -, -, -, -, -, -, -, e0, e1, -⟩ := index_facts t
  match a with
  | ⟨0, _⟩ => show win1_4.index t (0 : Fin 2) * 32 + 1 * (y 0).val = (y 0).val; rw [e0]; omega
  | ⟨1, _⟩ => show win1_4.index t (1 : Fin 2) * 32 + 1 * (y 1).val = (y 1).val; rw [e1]; omega

/-- Window 5's block at point `t` of any array: its rows `10000 t …`. -/
theorem read_rows_5 (t : Fin cfg1.N) (G : Mat 100000 32) :
    ((cfg1.win 5).blk t).view.read (Elt Ideal) G
      = rowsAt 10000 (t.val * 10000) (by have := point_lt t; omega) G := by
  funext y
  rw [View.read_apply]
  show G _ = G _
  refine congrArg G (funext fun a => Fin.ext ?_)
  obtain ⟨-, -, -, -, -, -, -, -, -, -, e0, e1⟩ := index_facts t
  match a with
  | ⟨0, _⟩ => show win1_5.index t (0 : Fin 2) * 10000 + 1 * (y 0).val = t.val * 10000 + (y 0).val; rw [e0]; omega
  | ⟨1, _⟩ => show win1_5.index t (1 : Fin 2) * 32 + 1 * (y 1).val = (y 1).val; rw [e1]; omega

/-! ## The input blocks the body finds -/

theorem block_0 (c : Dev nD) (t : Fin cfg1.N) :
    iblk1 V c 0 t = rowsAt 10000 (t.val * 10000) (by have := point_lt t; omega) (V c main_v54 : Mat 100000 32) :=
  read_rows_0 t _
theorem block_1 (c : Dev nD) (t : Fin cfg1.N) : iblk1 V c 1 t = (V c main_v33 : Mat 1 32) := read_whole_1 t _
theorem block_2 (c : Dev nD) (t : Fin cfg1.N) :
    iblk1 V c 2 t = rowsAt 10000 (t.val * 10000) (by have := point_lt t; omega) (V c main_v41_0 : Mat 100000 32) :=
  read_rows_2 t _
theorem block_3 (c : Dev nD) (t : Fin cfg1.N) : iblk1 V c 3 t = (V c main_v36 : Mat 32 32) := read_whole_3 t _
theorem block_4 (c : Dev nD) (t : Fin cfg1.N) : iblk1 V c 4 t = (V c main_v37 : Mat 32 32) := read_whole_4 t _

/-! ## What a point writes back, the cover, and the result array -/

/-- The rectified first aggregate times the upper weights plus the embedding times the lower, as the region finds its operands. -/
abbrev mixed (c : Dev nD) : Mat 100000 32 :=
  mix (R := 100000) (K := 32) (C := 32) (act (R := 100000) (C := 32) (V c main_v54) (V c main_v33)) (V c main_v41_0) (V c main_v36) (V c main_v37)

/-- Point `t` writes back, through window 5, its band of rows of that array. -/
theorem flushed_5 (c : Dev nD) (t : Fin cfg1.N) :
    (dat1 V c).flushed 5 t = ((cfg1.win 5).blk t).view.read (Elt Ideal) (mixed V c) := by
  show (cfg1.win 5).cut (grid1.coords t) ((dat1 V c).after 5 t) = _
  rw [after1_5]
  unfold out1_5
  rw [View.canon_unit_zero hz]
  simp only [View.ld_unit_zero (S := S10000x32) hz, View.ld_unit_zero (S := S1x32) hz, View.ld_unit_zero (S := S32x32) hz]
  rw [Tiles.layer_tile, block_0, block_1, block_2, block_3, block_4, read_rows_5, act_rowsAt, mix_rowsAt]
  rfl

/-- Every index of the result array is in the block of the point that holds its row. -/
theorem covered_5 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by rw [hN]; omega⟩, rfl⟩
  refine ⟨t, flush1_5 t, ?_⟩
  show i ∈ ((View.whole main_v55).slice (win1_5.rect t)).set
  rw [View.set_slice_whole, Rect.mem_set_unit]
  obtain ⟨-, -, -, -, -, -, -, -, -, -, e0, e1⟩ := index_facts t
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 32 ≤ (i 1).val ∧ (i 1).val < win1_5.index t (1 : Fin 2) * 32 + 32
    rw [e1]; omega

/-- The result array after the region. -/
theorem final_5 (c : Dev nD) : (dat1 V c).arrAt 5 cfg1.N = mixed V c :=
  (dat1 V c).arrAt_eq_of_cover 5 (mixed V c) (fun t _ => flushed_5 V c t) covered_5

end Cert.KernelIdeal.Region1

end
-- ==== Proof.Region2.lean ====
/-
  The third kernel region, read as whole arrays.

  Point `t` stages rows `10000 t …` of the second aggregate, of the embedding and of the feature column, and the
  whole of the bias row, of the two halves of the readout weights and of the readout bias; it writes back the same
  band of rows of `max ((max (agg + b) 0 · wa + h · wb + bp) + xc) 0`.  That function is row-local and the ten bands
  tile the rows, so the result array ends at it, of whatever arrays the region finds.
-/
import proofs.«180521_j28638841930196_1_alg».proof.Proof.Gen.KernelIdeal.Frame
import proofs.«180521_j28638841930196_1_alg».proof.Proof.Tiles
import Idealize.ShloMosaic.Lib.Pipeline.Value

set_option maxRecDepth 16384

noncomputable section

open scoped BigOperators

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of ten. -/
theorem point_lt (t : Fin cfg2.N) : t.val < 10 := by
  have h := t.isLt
  have e : cfg2.N = 10 := N_2
  omega

/-- The printed index maps over the grid: a row window's block index is the point, every other index is zero. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Window 0's block at point `t` of any array: its rows `10000 t …`. -/
theorem read_rows_0 (t : Fin cfg2.N) (G : Mat 100000 32) :
    ((cfg2.win 0).blk t).view.read (Elt Ideal) G
      = rowsAt 10000 (t.val * 10000) (by have := point_lt t; omega) G := by
  funext y
  rw [View.read_apply]
  show G _ = G _
  refine congrArg G (funext fun a => Fin.ext ?_)
  obtain ⟨e0, e1, -⟩ := index_facts t
  match a with
  | ⟨0, _⟩ => show win2_0.index t (0 : Fin 2) * 10000 + 1 * (y 0).val = t.val * 10000 + (y 0).val; rw [e0]; omega
  | ⟨1, _⟩ => show win2_0.index t (1 : Fin 2) * 32 + 1 * (y 1).val = (y 1).val; rw [e1]; omega

/-- Window 1's block at every point is its whole array. -/
theorem read_whole_1 (t : Fin cfg2.N) (G : Mat 1 32) : ((cfg2.win 1).blk t).view.read (Elt Ideal) G = G := by
  funext y
  rw [View.read_apply]
  show G _ = G _
  refine congrArg G (funext fun a => Fin.ext ?_)
  obtain ⟨-, -, e0, e1, -⟩ := index_facts t
  match a with
  | ⟨0, _⟩ => show win2_1.index t (0 : Fin 2) * 1 + 1 * (y 0).val = (y 0).val; rw [e0]; omega
  | ⟨1, _⟩ => show win2_1.index t (1 : Fin 2) * 32 + 1 * (y 1).val = (y 1).val; rw [e1]; omega

/-- Window 2's block at point `t` of any array: its rows `10000 t …`. -/
theorem read_rows_2 (t : Fin cfg2.N) (G : Mat 100000 32) :
    ((cfg2.win 2).blk t).view.read (Elt Ideal) G
      = rowsAt 10000 (t.val * 10000) (by have := point_lt t; omega) G := by
  funext y
  rw [View.read_apply]
  show G _ = G _
  refine congrArg G (funext fun a => Fin.ext ?_)
  obtain ⟨-, -, -, -, e0, e1, -⟩ := index_facts t
  match a with
  | ⟨0, _⟩ => show win2_2.index t (0 : Fin 2) * 10000 + 1 * (y 0).val = t.val * 10000 + (y 0).val; rw [e0]; omega
  | ⟨1, _⟩ => show win2_2.index t (1 : Fin 2) * 32 + 1 * (y 1).val = (y 1).val; rw [e1]; omega

/-- Window 3's block at every point is its whole array. -/
theorem read_whole_3 (t : Fin cfg2.N) (G : Mat 32 1) : ((cfg2.win 3).blk t).view.read (Elt Ideal) G = G := by
  funext y
  rw [View.read_apply]
  show G _ = G _
  refine congrArg G (funext fun a => Fin.ext ?_)
  obtain ⟨-, -, -, -, -, -, e0, e1, -⟩ := index_facts t
  match a with
  | ⟨0, _⟩ => show win2_3.index t (0 : Fin 2) * 32 + 1 * (y 0).val = (y 0).val; rw [e0]; omega
  | ⟨1, _⟩ => show win2_3.index t (1 : Fin 2) * 1 + 1 * (y 1).val = (y 1).val; rw [e1]; omega

/-- Window 4's block at every point is its whole array. -/
theorem read_whole_4 (t : Fin cfg2.N) (G : Mat 32 1) : ((cfg2.win 4).blk t).view.read (Elt Ideal) G = G := by
  funext y
  rw [View.read_apply]
  show G _ = G _
  refine congrArg G (funext fun a => Fin.ext ?_)
  obtain ⟨-, -, -, -, -, -, -, -, e0, e1, -⟩ := index_facts t
  match a with
  | ⟨0, _⟩ => show win2_4.index t (0 : Fin 2) * 32 + 1 * (y 0).val = (y 0).val; rw [e0]; omega
  | ⟨1, _⟩ => show win2_4.index t (1 : Fin 2) * 1 + 1 * (y 1).val = (y 1).val; rw [e1]; omega

/-- Window 5's block at every point is its whole array. -/
theorem read_whole_5 (t : Fin cfg2.N) (G : Mat 1 1) : ((cfg2.win 5).blk t).view.read (Elt Ideal) G = G := by
  funext y
  rw [View.read_apply]
  show G _ = G _
  refine congrArg G (funext fun a => Fin.ext ?_)
  obtain ⟨-, -, -, -, -, -, -, -, -, -, e0, e1, -⟩ := index_facts t
  match a with
  | ⟨0, _⟩ => show win2_5.index t (0 : Fin 2) * 1 + 1 * (y 0).val = (y 0).val; rw [e0]; omega
  | ⟨1, _⟩ => show win2_5.index t (1 : Fin 2) * 1 + 1 * (y 1).val = (y 1).val; rw [e1]; omega

/-- Window 6's block at point `t` of any array: its rows `10000 t …`. -/
theorem read_rows_6 (t : Fin cfg2.N) (G : Mat 100000 1) :
    ((cfg2.win 6).blk t).view.read (Elt Ideal) G
      = rowsAt 10000 (t.val * 10000) (by have := point_lt t; omega) G := by
  funext y
  rw [View.read_apply]
  show G _ = G _
  refine congrArg G (funext fun a => Fin.ext ?_)
  obtain ⟨-, -, -, -, -, -, -, -, -, -, -, -, e0, e1, -⟩ := index_facts t
  match a with
  | ⟨0, _⟩ => show win2_6.index t (0 : Fin 2) * 10000 + 1 * (y 0).val = t.val * 10000 + (y 0).val; rw [e0]; omega
  | ⟨1, _⟩ => show win2_6.index t (1 : Fin 2) * 1 + 1 * (y 1).val = (y 1).val; rw [e1]; omega

/-- Window 7's block at point `t` of any array: its rows `10000 t …`. -/
theorem read_rows_7 (t : Fin cfg2.N) (G : Mat 100000 1) :
    ((cfg2.win 7).blk t).view.read (Elt Ideal) G
      = rowsAt 10000 (t.val * 10000) (by have := point_lt t; omega) G := by
  funext y
  rw [View.read_apply]
  show G _ = G _
  refine congrArg G (funext fun a => Fin.ext ?_)
  obtain ⟨-, -, -, -, -, -, -, -, -, -, -, -, -, -, e0, e1⟩ := index_facts t
  match a with
  | ⟨0, _⟩ => show win2_7.index t (0 : Fin 2) * 10000 + 1 * (y 0).val = t.val * 10000 + (y 0).val; rw [e0]; omega
  | ⟨1, _⟩ => show win2_7.index t (1 : Fin 2) * 1 + 1 * (y 1).val = (y 1).val; rw [e1]; omega

/-! ## The input blocks the body finds -/

theorem block_0 (c : Dev nD) (t : Fin cfg2.N) :
    iblk2 V c 0 t = rowsAt 10000 (t.val * 10000) (by have := point_lt t; omega) (V c main_v68 : Mat 100000 32) :=
  read_rows_0 t _
theorem block_1 (c : Dev nD) (t : Fin cfg2.N) : iblk2 V c 1 t = (V c main_v34 : Mat 1 32) := read_whole_1 t _
theorem block_2 (c : Dev nD) (t : Fin cfg2.N) :
    iblk2 V c 2 t = rowsAt 10000 (t.val * 10000) (by have := point_lt t; omega) (V c main_v41_0 : Mat 100000 32) :=
  read_rows_2 t _
theorem block_3 (c : Dev nD) (t : Fin cfg2.N) : iblk2 V c 3 t = (V c main_v38 : Mat 32 1) := read_whole_3 t _
theorem block_4 (c : Dev nD) (t : Fin cfg2.N) : iblk2 V c 4 t = (V c main_v39 : Mat 32 1) := read_whole_4 t _
theorem block_5 (c : Dev nD) (t : Fin cfg2.N) : iblk2 V c 5 t = (V c main_v35 : Mat 1 1) := read_whole_5 t _
theorem block_6 (c : Dev nD) (t : Fin cfg2.N) :
    iblk2 V c 6 t = rowsAt 10000 (t.val * 10000) (by have := point_lt t; omega) (V c main_v40 : Mat 100000 1) :=
  read_rows_6 t _

/-! ## What a point writes back, the cover, and the result array -/

/-- The readout of the rectified second aggregate and the embedding, as the region finds its operands. -/
abbrev predicted (c : Dev nD) : Mat 100000 1 :=
  readout (R := 100000) (K := 32) (act (R := 100000) (C := 32) (V c main_v68) (V c main_v34)) (V c main_v41_0) (V c main_v38) (V c main_v39) (V c main_v35) (V c main_v40)

/-- Point `t` writes back, through window 7, its band of rows of that array. -/
theorem flushed_7 (c : Dev nD) (t : Fin cfg2.N) :
    (dat2 V c).flushed 7 t = ((cfg2.win 7).blk t).view.read (Elt Ideal) (predicted V c) := by
  show (cfg2.win 7).cut (grid2.coords t) ((dat2 V c).after 7 t) = _
  rw [after2_7]
  unfold out2_7
  rw [View.canon_unit_zero hz]
  simp only [View.ld_unit_zero (S := S10000x32) hz, View.ld_unit_zero (S := S1x32) hz, View.ld_unit_zero (S := S32x1) hz, View.ld_unit_zero (S := S1x1) hz, View.ld_unit_zero (S := S10000x1) hz]
  rw [Tiles.readout_tile, block_0, block_1, block_2, block_3, block_4, block_5, block_6, read_rows_7, act_rowsAt, readout_rowsAt]
  rfl

/-- Every index of the result array is in the block of the point that holds its row. -/
theorem covered_7 (i : S100000x1.Idx) :
    ∃ t : Fin cfg2.N, (cfg2.win 7).flush t = true ∧ i ∈ ((cfg2.win 7).blk t).view.set := by
  have hi0 : (i 0).val < 100000 := (i 0).isLt
  have hi1 : (i 1).val < 1 := (i 1).isLt
  have hN : cfg2.N = 10 := N_2
  obtain ⟨t, ht⟩ : ∃ t : Fin cfg2.N, t.val = (i 0).val / 10000 := ⟨⟨(i 0).val / 10000, by rw [hN]; omega⟩, rfl⟩
  refine ⟨t, flush2_7 t, ?_⟩
  show i ∈ ((View.whole main_v69).slice (win2_7.rect t)).set
  rw [View.set_slice_whole, Rect.mem_set_unit]
  obtain ⟨-, -, -, -, -, -, -, -, -, -, -, -, -, -, e0, e1⟩ := index_facts t
  intro a
  match a with
  | ⟨0, _⟩ =>
    show win2_7.index t (0 : Fin 2) * 10000 ≤ (i 0).val ∧ (i 0).val < win2_7.index t (0 : Fin 2) * 10000 + 10000
    rw [e0, ht]; omega
  | ⟨1, _⟩ =>
    show win2_7.index t (1 : Fin 2) * 1 ≤ (i 1).val ∧ (i 1).val < win2_7.index t (1 : Fin 2) * 1 + 1
    rw [e1]; omega

/-- The result array after the region. -/
theorem final_7 (c : Dev nD) : (dat2 V c).arrAt 7 cfg2.N = predicted V c :=
  (dat2 V c).arrAt_eq_of_cover 7 (predicted V c) (fun t _ => flushed_7 V c t) covered_7

end Cert.KernelIdeal.Region2

end
-- ==== Proof.Edges.lean ====
/-
  The graph side of the network: edge lists, edge weights and one aggregation, as the host computes them.

  From the edge index array (two rows of 1.6 million node numbers) the host makes the source and target lists by
  appending the self loops `0 … 99999`, counts each node's incoming edges by a scatter-add of ones, takes
  `1 / sqrt (max deg 1)` where the count is positive and `0` elsewhere, and weighs an edge by the product of that
  quantity at its two ends.  One aggregation gathers the rows of a node array at the edges' sources (a negative
  number wrapped by the node count), scales each by its edge's weight, and scatter-adds them at the edges' targets.
  Both programs spell these stages with the same host operations, so they are named once here and never opened: the
  certificate only ever applies them to equal arguments.
-/
import proofs.«180521_j28638841930196_1_alg».proof.KernelIdeal
import proofs.«180521_j28638841930196_1_alg».proof.Proof.Gen.KernelIdeal
import Idealize.ShloMosaic.PureOps.Ideal

noncomputable section

namespace Cert.KernelIdeal.Edges

open Cert.KernelIdeal Cert.KernelIdeal.Gen
open Idealize.ShloMosaic

/-- The edges' source nodes, the self loops appended. -/
def sources (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
      ⟨S100000, iotaInDim S100000 32 0⟩]
    concatenates_S1600000_S100000_S1700000_d0

/-- The edges' target nodes, the self loops appended. -/
def targets (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
      ⟨S100000, iotaInDim S100000 32 0⟩]
    concatenates_S1600000_S100000_S1700000_d0

/-- A list of node numbers with the negative ones wrapped by the node count, as a column of gather indices. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Each node's number of incoming edges. -/
def degree (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (targets ei))
    (broadcastInDim S1700000 ![] bcast_S_S1700000 (constant (F := Ideal) S_ .f32 0x3F800000#32))

/-- `1 / sqrt (max deg 1)` where the count is positive, `0` elsewhere. -/
def invSqrtDegree (ei : IVec S2x1600000 32) : FVec Ideal S100000 .f32 :=
  select (cmpf (F := Ideal) .ogt (degree ei) (broadcastInDim S100000 ![] bcast_S_S100000 (constant (F := Ideal) S_ .f32 0x00000000#32)))
    (Host.rsqrt (F := Ideal) (maximumf (F := Ideal) (degree ei) (broadcastInDim S100000 ![] bcast_S_S100000 (constant (F := Ideal) S_ .f32 0x3F800000#32))))
    (broadcastInDim S100000 ![] bcast_S_S100000 (id (constant (F := Ideal) S_ .f32 0x00000000#32)))

/-- An edge's weight: the product of that quantity at its source and at its target. -/
def edgeWeight (ei : IVec S2x1600000 32) : FVec Ideal S1700000 .f32 :=
  mulf (F := Ideal) (Host.gather gather_S100000_S1700000x1_S1700000_n_0_n_n_0_1_1 (invSqrtDegree ei) (wrapped (sources ei)))
    (Host.gather gather_S100000_S1700000x1_S1700000_n_0_n_n_0_1_1 (invSqrtDegree ei) (wrapped (targets ei)))

/-- One aggregation of a node array over given edge lists and edge weights. -/
def aggregateOver (src dst : IVec S1700000 32) (wgt : FVec Ideal S1700000 .f32) (hw : FVec Ideal S100000x32 .f32) :
    FVec Ideal S100000x32 .f32 :=
  Host.scatterAdd (F := Ideal) scatter_S100000x32_S1700000x1_S1700000x32_1_0_0_1
    (broadcastInDim S100000x32 ![] bcast_S_S100000x32 (constant (F := Ideal) S_ .f32 0x00000000#32))
    (broadcastInDim S1700000x1 ![0] bcast_S1700000_S1700000x1_0 dst)
    (mulf (F := Ideal) (Host.gather gather_S100000x32_S1700000x1_S1700000x32_1_0_n_n_0_1_132 hw (wrapped src))
      (broadcastInDim S1700000x32 ![0, 1] bcast_S1700000x1_S1700000x32_0_1
        (broadcastInDim S1700000x1 ![0] bcast_S1700000_S1700000x1_0 wgt)))

/-- One aggregation over the graph of an edge index array. -/
def aggregate (ei : IVec S2x1600000 32) (hw : FVec Ideal S100000x32 .f32) : FVec Ideal S100000x32 .f32 :=
  aggregateOver (sources ei) (targets ei) (edgeWeight ei) hw

end Cert.KernelIdeal.Edges

end
-- ==== Proof.Fold.lean ====
/-
  The idealized kernel's result, read back through the fold of its segments.

  The run leaves the result buffer at the last boundary's contents.  Going backwards: the third region writes the
  readout of the arrays it finds; those are the second aggregate (a host aggregation of the second region's result),
  the embedding (the first region's first result, which no later segment writes), and bias rows, halves of weight
  matrices and the feature column that the first host stretches made from the arguments and that nothing writes
  afterwards; the second region's result is the mix of the rectified first aggregate (a host aggregation of the first
  region's second result) with the embedding; the first region's results are the embedding of the feature array and
  its product with the first layer's weights.  Put together, the result is the network function of the launch
  arrays, over the host's own aggregation.
-/
import proofs.«180521_j28638841930196_1_alg».proof.Proof.Gen.KernelIdeal.Frame
import proofs.«180521_j28638841930196_1_alg».proof.Proof.Region0
import proofs.«180521_j28638841930196_1_alg».proof.Proof.Region1
import proofs.«180521_j28638841930196_1_alg».proof.Proof.Region2
import proofs.«180521_j28638841930196_1_alg».proof.Proof.Edges

set_option maxRecDepth 16384

noncomputable section

namespace Cert.KernelIdeal.Fold

open Cert.KernelIdeal Cert.KernelIdeal.Gen Cert.KernelIdeal.Edges Cert.GraphConv
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The first region's entry: the three early stretches as one list of operations from the launch memory -/

theorem entry_flat : W3 (F := Ideal) m ρ c = StableHlo.after (hostOps0 ++ (hostOps0_1 ++ hostOps0_2)) (W0 m ρ c) := by
  rw [StableHlo.after_append, StableHlo.after_append]

/-- Unrolls the fold at one buffer; what is left is an equation between host terms over the launch arrays. -/
local macro "entry_value" : tactic =>
  `(tactic| (rw [entry_flat]
             simp only [hostOps0, hostOps0_1, hostOps0_2, List.cons_append, List.nil_append]
             after_results_simp <;> rfl))

section Entry
attribute [local irreducible] Host.scatterAdd Host.gather Host.rsqrt concatenate

/-! The edge lists, the degree's comparison and its reciprocal root come out of the first stretch; the outlined
    selection is the second stretch; the edge weights are made in the third.  Each stretch is read over an arbitrary
    valuation of the buffers, so that no term is ever expanded further than one stretch deep. -/

variable (V : Valuation τ sig (Elt Ideal))

theorem first_sources : StableHlo.after hostOps0 V (Proc.devRef .tc main_v3) = sources (V (Proc.devRef .tc main_arg1)) := by
  unfold sources; after_results_simp <;> rfl
theorem first_targets : StableHlo.after hostOps0 V (Proc.devRef .tc main_v6) = targets (V (Proc.devRef .tc main_arg1)) := by
  unfold targets; after_results_simp <;> rfl
theorem first_positive : StableHlo.after hostOps0 V (Proc.devRef .tc main_v12)
    = cmpf (F := Ideal) .ogt (degree (V (Proc.devRef .tc main_arg1)))
        (broadcastInDim S100000 ![] bcast_S_S100000 (constant (F := Ideal) S_ .f32 0x00000000#32)) := by
  unfold degree targets; after_results_simp <;> rfl
theorem first_root : StableHlo.after hostOps0 V (Proc.devRef .tc main_v15)
    = Host.rsqrt (F := Ideal) (maximumf (F := Ideal) (degree (V (Proc.devRef .tc main_arg1)))
        (broadcastInDim S100000 ![] bcast_S_S100000 (constant (F := Ideal) S_ .f32 0x3F800000#32))) := by
  unfold degree targets; after_results_simp <;> rfl
theorem first_zero : StableHlo.after hostOps0 V (Proc.devRef .tc main_cst_3) = constant (F := Ideal) S_ .f32 0x00000000#32 := by
  after_results_simp <;> rfl

theorem second_select : StableHlo.after hostOps0_1 V (Proc.devRef .tc main_v16)
    = select (V (Proc.devRef .tc main_v12)) (V (Proc.devRef .tc main_v15))
        (broadcastInDim S100000 ![] bcast_S_S100000 (id (V (Proc.devRef .tc main_cst_3)))) := by
  after_results_simp <;> rfl
theorem second_sources : StableHlo.after hostOps0_1 V (Proc.devRef .tc main_v3) = V (Proc.devRef .tc main_v3) := by
  after_results_simp <;> rfl
theorem second_targets : StableHlo.after hostOps0_1 V (Proc.devRef .tc main_v6) = V (Proc.devRef .tc main_v6) := by
  after_results_simp <;> rfl

theorem third_weights : StableHlo.after hostOps0_2 V (Proc.devRef .tc main_v31)
    = mulf (F := Ideal) (φ := .f32)
        (Host.gather gather_S100000_S1700000x1_S1700000_n_0_n_n_0_1_1 (V (Proc.devRef .tc main_v16)) (wrapped (V (Proc.devRef .tc main_v3))))
        (Host.gather gather_S100000_S1700000x1_S1700000_n_0_n_n_0_1_1 (V (Proc.devRef .tc main_v16)) (wrapped (V (Proc.devRef .tc main_v6)))) := by
  unfold wrapped; after_results_simp <;> rfl
theorem third_sources : StableHlo.after hostOps0_2 V (Proc.devRef .tc main_v3) = V (Proc.devRef .tc main_v3) := by
  after_results_simp <;> rfl
theorem third_targets : StableHlo.after hostOps0_2 V (Proc.devRef .tc main_v6) = V (Proc.devRef .tc main_v6) := by
  after_results_simp <;> rfl

theorem entry_sources : W3 (F := Ideal) m ρ c (Proc.devRef .tc main_v3) = sources (m ((c.tc : Thread nD τ).loc main_arg1)) := by
  show StableHlo.after hostOps0_2 (W2 m ρ c) (Proc.devRef .tc main_v3) = _
  rw [third_sources]
  show StableHlo.after hostOps0_1 (W1 m ρ c) (Proc.devRef .tc main_v3) = _
  rw [second_sources]
  exact first_sources (W0 m ρ c)
theorem entry_targets : W3 (F := Ideal) m ρ c (Proc.devRef .tc main_v6) = targets (m ((c.tc : Thread nD τ).loc main_arg1)) := by
  show StableHlo.after hostOps0_2 (W2 m ρ c) (Proc.devRef .tc main_v6) = _
  rw [third_targets]
  show StableHlo.after hostOps0_1 (W1 m ρ c) (Proc.devRef .tc main_v6) = _
  rw [second_targets]
  exact first_targets (W0 m ρ c)
theorem entry_weights : W3 (F := Ideal) m ρ c (Proc.devRef .tc main_v31) = edgeWeight (m ((c.tc : Thread nD τ).loc main_arg1)) := by
  show StableHlo.after hostOps0_2 (W2 m ρ c) (Proc.devRef .tc main_v31) = _
  rw [third_weights]
  show mulf (F := Ideal) (φ := .f32)
      (Host.gather gather_S100000_S1700000x1_S1700000_n_0_n_n_0_1_1 (StableHlo.after hostOps0_1 (W1 m ρ c) (Proc.devRef .tc main_v16))
        (wrapped (StableHlo.after hostOps0_1 (W1 m ρ c) (Proc.devRef .tc main_v3))))
      (Host.gather gather_S100000_S1700000x1_S1700000_n_0_n_n_0_1_1 (StableHlo.after hostOps0_1 (W1 m ρ c) (Proc.devRef .tc main_v16))
        (wrapped (StableHlo.after hostOps0_1 (W1 m ρ c) (Proc.devRef .tc main_v6)))) = _
  rw [second_select, second_sources, second_targets]
  show mulf (F := Ideal) (φ := .f32)
      (Host.gather gather_S100000_S1700000x1_S1700000_n_0_n_n_0_1_1
        (select (StableHlo.after hostOps0 (W0 m ρ c) (Proc.devRef .tc main_v12)) (StableHlo.after hostOps0 (W0 m ρ c) (Proc.devRef .tc main_v15))
          (broadcastInDim S100000 ![] bcast_S_S100000 (id (StableHlo.after hostOps0 (W0 m ρ c) (Proc.devRef .tc main_cst_3)))))
        (wrapped (StableHlo.after hostOps0 (W0 m ρ c) (Proc.devRef .tc main_v3))))
      (Host.gather gather_S100000_S1700000x1_S1700000_n_0_n_n_0_1_1
        (select (StableHlo.after hostOps0 (W0 m ρ c) (Proc.devRef .tc main_v12)) (StableHlo.after hostOps0 (W0 m ρ c) (Proc.devRef .tc main_v15))
          (broadcastInDim S100000 ![] bcast_S_S100000 (id (StableHlo.after hostOps0 (W0 m ρ c) (Proc.devRef .tc main_cst_3)))))
        (wrapped (StableHlo.after hostOps0 (W0 m ρ c) (Proc.devRef .tc main_v6)))) = _
  rw [first_positive, first_root, first_zero, first_sources, first_targets]
  rfl
end Entry

theorem entry_x : W3 (F := Ideal) m ρ c (Proc.devRef .tc main_arg0) = m ((c.tc : Thread nD τ).loc main_arg0) := by entry_value
theorem entry_we : W3 (F := Ideal) m ρ c (Proc.devRef .tc main_arg2) = m ((c.tc : Thread nD τ).loc main_arg2) := by entry_value
theorem entry_w1 : W3 (F := Ideal) m ρ c (Proc.devRef .tc main_arg4) = m ((c.tc : Thread nD τ).loc main_arg4) := by entry_value
theorem entry_be : W3 (F := Ideal) m ρ c (Proc.devRef .tc main_v32)
    = shapeCast S1x32 (m ((c.tc : Thread nD τ).loc main_arg3)) shapeCasts_S32_S1x32 := by entry_value
theorem entry_b1 : W3 (F := Ideal) m ρ c (Proc.devRef .tc main_v33)
    = shapeCast S1x32 (m ((c.tc : Thread nD τ).loc main_arg5)) shapeCasts_S32_S1x32 := by entry_value
theorem entry_b2 : W3 (F := Ideal) m ρ c (Proc.devRef .tc main_v34)
    = shapeCast S1x32 (m ((c.tc : Thread nD τ).loc main_arg7)) shapeCasts_S32_S1x32 := by entry_value
theorem entry_bp : W3 (F := Ideal) m ρ c (Proc.devRef .tc main_v35)
    = shapeCast S1x1 (m ((c.tc : Thread nD τ).loc main_arg9)) shapeCasts_S1_S1x1 := by entry_value
theorem entry_w2a : W3 (F := Ideal) m ρ c (Proc.devRef .tc main_v36)
    = extractStridedSlice S32x32 ![0, 0] (m ((c.tc : Thread nD τ).loc main_arg6)) slices_S64x32_S32x32_0_0 := by entry_value
theorem entry_w2b : W3 (F := Ideal) m ρ c (Proc.devRef .tc main_v37)
    = extractStridedSlice S32x32 ![32, 0] (m ((c.tc : Thread nD τ).loc main_arg6)) slices_S64x32_S32x32_32_0 := by entry_value
theorem entry_wpa : W3 (F := Ideal) m ρ c (Proc.devRef .tc main_v38)
    = extractStridedSlice S32x1 ![0, 0] (m ((c.tc : Thread nD τ).loc main_arg8)) slices_S64x1_S32x1_0_0 := by entry_value
theorem entry_wpb : W3 (F := Ideal) m ρ c (Proc.devRef .tc main_v39)
    = extractStridedSlice S32x1 ![32, 0] (m ((c.tc : Thread nD τ).loc main_arg8)) slices_S64x1_S32x1_32_0 := by entry_value
theorem entry_xcol : W3 (F := Ideal) m ρ c (Proc.devRef .tc main_v40)
    = extractStridedSlice S100000x1 ![0, 1] (m ((c.tc : Thread nD τ).loc main_arg0)) slices_S100000x22_S100000x1_0_1 := by entry_value

/-! ## Buffers no later segment writes keep their entry contents -/

theorem late_main_v3 : W7 (F := Ideal) m ρ c (Proc.devRef .tc main_v3) = W3 m ρ c (Proc.devRef .tc main_v3)
    ∧ W6 (F := Ideal) m ρ c (Proc.devRef .tc main_v3) = W3 m ρ c (Proc.devRef .tc main_v3)
    ∧ W4 (F := Ideal) m ρ c (Proc.devRef .tc main_v3) = W3 m ρ c (Proc.devRef .tc main_v3) := by
  have h4 : W4 (F := Ideal) m ρ c (Proc.devRef .tc main_v3) = W3 m ρ c (Proc.devRef .tc main_v3) := W4_of_ne m ρ c main_v3 (by decide)
  have h5 : W5 (F := Ideal) m ρ c (Proc.devRef .tc main_v3) = W4 m ρ c (Proc.devRef .tc main_v3) := (by show StableHlo.after hostOps1 (W4 m ρ c) (Proc.devRef .tc main_v3) = W4 m ρ c (Proc.devRef .tc main_v3); after_results_simp)
  have h6 : W6 (F := Ideal) m ρ c (Proc.devRef .tc main_v3) = W5 m ρ c (Proc.devRef .tc main_v3) := W6_of_ne m ρ c main_v3 (by decide)
  have h7 : W7 (F := Ideal) m ρ c (Proc.devRef .tc main_v3) = W6 m ρ c (Proc.devRef .tc main_v3) := (by show StableHlo.after hostOps2 (W6 m ρ c) (Proc.devRef .tc main_v3) = W6 m ρ c (Proc.devRef .tc main_v3); after_results_simp)
  exact ⟨h7.trans (h6.trans (h5.trans h4)), h6.trans (h5.trans h4), h4⟩

theorem late_main_v6 : W7 (F := Ideal) m ρ c (Proc.devRef .tc main_v6) = W3 m ρ c (Proc.devRef .tc main_v6)
    ∧ W6 (F := Ideal) m ρ c (Proc.devRef .tc main_v6) = W3 m ρ c (Proc.devRef .tc main_v6)
    ∧ W4 (F := Ideal) m ρ c (Proc.devRef .tc main_v6) = W3 m ρ c (Proc.devRef .tc main_v6) := by
  have h4 : W4 (F := Ideal) m ρ c (Proc.devRef .tc main_v6) = W3 m ρ c (Proc.devRef .tc main_v6) := W4_of_ne m ρ c main_v6 (by decide)
  have h5 : W5 (F := Ideal) m ρ c (Proc.devRef .tc main_v6) = W4 m ρ c (Proc.devRef .tc main_v6) := (by show StableHlo.after hostOps1 (W4 m ρ c) (Proc.devRef .tc main_v6) = W4 m ρ c (Proc.devRef .tc main_v6); after_results_simp)
  have h6 : W6 (F := Ideal) m ρ c (Proc.devRef .tc main_v6) = W5 m ρ c (Proc.devRef .tc main_v6) := W6_of_ne m ρ c main_v6 (by decide)
  have h7 : W7 (F := Ideal) m ρ c (Proc.devRef .tc main_v6) = W6 m ρ c (Proc.devRef .tc main_v6) := (by show StableHlo.after hostOps2 (W6 m ρ c) (Proc.devRef .tc main_v6) = W6 m ρ c (Proc.devRef .tc main_v6); after_results_simp)
  exact ⟨h7.trans (h6.trans (h5.trans h4)), h6.trans (h5.trans h4), h4⟩

theorem late_main_v31 : W7 (F := Ideal) m ρ c (Proc.devRef .tc main_v31) = W3 m ρ c (Proc.devRef .tc main_v31)
    ∧ W6 (F := Ideal) m ρ c (Proc.devRef .tc main_v31) = W3 m ρ c (Proc.devRef .tc main_v31)
    ∧ W4 (F := Ideal) m ρ c (Proc.devRef .tc main_v31) = W3 m ρ c (Proc.devRef .tc main_v31) := by
  have h4 : W4 (F := Ideal) m ρ c (Proc.devRef .tc main_v31) = W3 m ρ c (Proc.devRef .tc main_v31) := W4_of_ne m ρ c main_v31 (by decide)
  have h5 : W5 (F := Ideal) m ρ c (Proc.devRef .tc main_v31) = W4 m ρ c (Proc.devRef .tc main_v31) := (by show StableHlo.after hostOps1 (W4 m ρ c) (Proc.devRef .tc main_v31) = W4 m ρ c (Proc.devRef .tc main_v31); after_results_simp)
  have h6 : W6 (F := Ideal) m ρ c (Proc.devRef .tc main_v31) = W5 m ρ c (Proc.devRef .tc main_v31) := W6_of_ne m ρ c main_v31 (by decide)
  have h7 : W7 (F := Ideal) m ρ c (Proc.devRef .tc main_v31) = W6 m ρ c (Proc.devRef .tc main_v31) := (by show StableHlo.after hostOps2 (W6 m ρ c) (Proc.devRef .tc main_v31) = W6 m ρ c (Proc.devRef .tc main_v31); after_results_simp)
  exact ⟨h7.trans (h6.trans (h5.trans h4)), h6.trans (h5.trans h4), h4⟩

theorem late_main_v34 : W7 (F := Ideal) m ρ c (Proc.devRef .tc main_v34) = W3 m ρ c (Proc.devRef .tc main_v34)
    ∧ W6 (F := Ideal) m ρ c (Proc.devRef .tc main_v34) = W3 m ρ c (Proc.devRef .tc main_v34)
    ∧ W4 (F := Ideal) m ρ c (Proc.devRef .tc main_v34) = W3 m ρ c (Proc.devRef .tc main_v34) := by
  have h4 : W4 (F := Ideal) m ρ c (Proc.devRef .tc main_v34) = W3 m ρ c (Proc.devRef .tc main_v34) := W4_of_ne m ρ c main_v34 (by decide)
  have h5 : W5 (F := Ideal) m ρ c (Proc.devRef .tc main_v34) = W4 m ρ c (Proc.devRef .tc main_v34) := (by show StableHlo.after hostOps1 (W4 m ρ c) (Proc.devRef .tc main_v34) = W4 m ρ c (Proc.devRef .tc main_v34); after_results_simp)
  have h6 : W6 (F := Ideal) m ρ c (Proc.devRef .tc main_v34) = W5 m ρ c (Proc.devRef .tc main_v34) := W6_of_ne m ρ c main_v34 (by decide)
  have h7 : W7 (F := Ideal) m ρ c (Proc.devRef .tc main_v34) = W6 m ρ c (Proc.devRef .tc main_v34) := (by show StableHlo.after hostOps2 (W6 m ρ c) (Proc.devRef .tc main_v34) = W6 m ρ c (Proc.devRef .tc main_v34); after_results_simp)
  exact ⟨h7.trans (h6.trans (h5.trans h4)), h6.trans (h5.trans h4), h4⟩

theorem late_main_v38 : W7 (F := Ideal) m ρ c (Proc.devRef .tc main_v38) = W3 m ρ c (Proc.devRef .tc main_v38)
    ∧ W6 (F := Ideal) m ρ c (Proc.devRef .tc main_v38) = W3 m ρ c (Proc.devRef .tc main_v38)
    ∧ W4 (F := Ideal) m ρ c (Proc.devRef .tc main_v38) = W3 m ρ c (Proc.devRef .tc main_v38) := by
  have h4 : W4 (F := Ideal) m ρ c (Proc.devRef .tc main_v38) = W3 m ρ c (Proc.devRef .tc main_v38) := W4_of_ne m ρ c main_v38 (by decide)
  have h5 : W5 (F := Ideal) m ρ c (Proc.devRef .tc main_v38) = W4 m ρ c (Proc.devRef .tc main_v38) := (by show StableHlo.after hostOps1 (W4 m ρ c) (Proc.devRef .tc main_v38) = W4 m ρ c (Proc.devRef .tc main_v38); after_results_simp)
  have h6 : W6 (F := Ideal) m ρ c (Proc.devRef .tc main_v38) = W5 m ρ c (Proc.devRef .tc main_v38) := W6_of_ne m ρ c main_v38 (by decide)
  have h7 : W7 (F := Ideal) m ρ c (Proc.devRef .tc main_v38) = W6 m ρ c (Proc.devRef .tc main_v38) := (by show StableHlo.after hostOps2 (W6 m ρ c) (Proc.devRef .tc main_v38) = W6 m ρ c (Proc.devRef .tc main_v38); after_results_simp)
  exact ⟨h7.trans (h6.trans (h5.trans h4)), h6.trans (h5.trans h4), h4⟩

theorem late_main_v39 : W7 (F := Ideal) m ρ c (Proc.devRef .tc main_v39) = W3 m ρ c (Proc.devRef .tc main_v39)
    ∧ W6 (F := Ideal) m ρ c (Proc.devRef .tc main_v39) = W3 m ρ c (Proc.devRef .tc main_v39)
    ∧ W4 (F := Ideal) m ρ c (Proc.devRef .tc main_v39) = W3 m ρ c (Proc.devRef .tc main_v39) := by
  have h4 : W4 (F := Ideal) m ρ c (Proc.devRef .tc main_v39) = W3 m ρ c (Proc.devRef .tc main_v39) := W4_of_ne m ρ c main_v39 (by decide)
  have h5 : W5 (F := Ideal) m ρ c (Proc.devRef .tc main_v39) = W4 m ρ c (Proc.devRef .tc main_v39) := (by show StableHlo.after hostOps1 (W4 m ρ c) (Proc.devRef .tc main_v39) = W4 m ρ c (Proc.devRef .tc main_v39); after_results_simp)
  have h6 : W6 (F := Ideal) m ρ c (Proc.devRef .tc main_v39) = W5 m ρ c (Proc.devRef .tc main_v39) := W6_of_ne m ρ c main_v39 (by decide)
  have h7 : W7 (F := Ideal) m ρ c (Proc.devRef .tc main_v39) = W6 m ρ c (Proc.devRef .tc main_v39) := (by show StableHlo.after hostOps2 (W6 m ρ c) (Proc.devRef .tc main_v39) = W6 m ρ c (Proc.devRef .tc main_v39); after_results_simp)
  exact ⟨h7.trans (h6.trans (h5.trans h4)), h6.trans (h5.trans h4), h4⟩

theorem late_main_v35 : W7 (F := Ideal) m ρ c (Proc.devRef .tc main_v35) = W3 m ρ c (Proc.devRef .tc main_v35)
    ∧ W6 (F := Ideal) m ρ c (Proc.devRef .tc main_v35) = W3 m ρ c (Proc.devRef .tc main_v35)
    ∧ W4 (F := Ideal) m ρ c (Proc.devRef .tc main_v35) = W3 m ρ c (Proc.devRef .tc main_v35) := by
  have h4 : W4 (F := Ideal) m ρ c (Proc.devRef .tc main_v35) = W3 m ρ c (Proc.devRef .tc main_v35) := W4_of_ne m ρ c main_v35 (by decide)
  have h5 : W5 (F := Ideal) m ρ c (Proc.devRef .tc main_v35) = W4 m ρ c (Proc.devRef .tc main_v35) := (by show StableHlo.after hostOps1 (W4 m ρ c) (Proc.devRef .tc main_v35) = W4 m ρ c (Proc.devRef .tc main_v35); after_results_simp)
  have h6 : W6 (F := Ideal) m ρ c (Proc.devRef .tc main_v35) = W5 m ρ c (Proc.devRef .tc main_v35) := W6_of_ne m ρ c main_v35 (by decide)
  have h7 : W7 (F := Ideal) m ρ c (Proc.devRef .tc main_v35) = W6 m ρ c (Proc.devRef .tc main_v35) := (by show StableHlo.after hostOps2 (W6 m ρ c) (Proc.devRef .tc main_v35) = W6 m ρ c (Proc.devRef .tc main_v35); after_results_simp)
  exact ⟨h7.trans (h6.trans (h5.trans h4)), h6.trans (h5.trans h4), h4⟩

theorem late_main_v40 : W7 (F := Ideal) m ρ c (Proc.devRef .tc main_v40) = W3 m ρ c (Proc.devRef .tc main_v40)
    ∧ W6 (F := Ideal) m ρ c (Proc.devRef .tc main_v40) = W3 m ρ c (Proc.devRef .tc main_v40)
    ∧ W4 (F := Ideal) m ρ c (Proc.devRef .tc main_v40) = W3 m ρ c (Proc.devRef .tc main_v40) := by
  have h4 : W4 (F := Ideal) m ρ c (Proc.devRef .tc main_v40) = W3 m ρ c (Proc.devRef .tc main_v40) := W4_of_ne m ρ c main_v40 (by decide)
  have h5 : W5 (F := Ideal) m ρ c (Proc.devRef .tc main_v40) = W4 m ρ c (Proc.devRef .tc main_v40) := (by show StableHlo.after hostOps1 (W4 m ρ c) (Proc.devRef .tc main_v40) = W4 m ρ c (Proc.devRef .tc main_v40); after_results_simp)
  have h6 : W6 (F := Ideal) m ρ c (Proc.devRef .tc main_v40) = W5 m ρ c (Proc.devRef .tc main_v40) := W6_of_ne m ρ c main_v40 (by decide)
  have h7 : W7 (F := Ideal) m ρ c (Proc.devRef .tc main_v40) = W6 m ρ c (Proc.devRef .tc main_v40) := (by show StableHlo.after hostOps2 (W6 m ρ c) (Proc.devRef .tc main_v40) = W6 m ρ c (Proc.devRef .tc main_v40); after_results_simp)
  exact ⟨h7.trans (h6.trans (h5.trans h4)), h6.trans (h5.trans h4), h4⟩

theorem mid_main_v33 : W5 (F := Ideal) m ρ c (Proc.devRef .tc main_v33) = W3 m ρ c (Proc.devRef .tc main_v33) :=
  ((by show StableHlo.after hostOps1 (W4 m ρ c) (Proc.devRef .tc main_v33) = W4 m ρ c (Proc.devRef .tc main_v33); after_results_simp) : W5 (F := Ideal) m ρ c (Proc.devRef .tc main_v33) = W4 m ρ c (Proc.devRef .tc main_v33)).trans
    (W4_of_ne m ρ c main_v33 (by decide))

theorem mid_main_v36 : W5 (F := Ideal) m ρ c (Proc.devRef .tc main_v36) = W3 m ρ c (Proc.devRef .tc main_v36) :=
  ((by show StableHlo.after hostOps1 (W4 m ρ c) (Proc.devRef .tc main_v36) = W4 m ρ c (Proc.devRef .tc main_v36); after_results_simp) : W5 (F := Ideal) m ρ c (Proc.devRef .tc main_v36) = W4 m ρ c (Proc.devRef .tc main_v36)).trans
    (W4_of_ne m ρ c main_v36 (by decide))

theorem mid_main_v37 : W5 (F := Ideal) m ρ c (Proc.devRef .tc main_v37) = W3 m ρ c (Proc.devRef .tc main_v37) :=
  ((by show StableHlo.after hostOps1 (W4 m ρ c) (Proc.devRef .tc main_v37) = W4 m ρ c (Proc.devRef .tc main_v37); after_results_simp) : W5 (F := Ideal) m ρ c (Proc.devRef .tc main_v37) = W4 m ρ c (Proc.devRef .tc main_v37)).trans
    (W4_of_ne m ρ c main_v37 (by decide))

/-! ## The embedding: the first region's first result, read by the two later regions -/

/-- The embedding of the feature array. -/
abbrev embedding : Mat 100000 32 :=
  affine (R := 100000) (K := 22) (C := 32) (m ((c.tc : Thread nD τ).loc main_arg0)) (m ((c.tc : Thread nD τ).loc main_arg2))
    (shapeCast S1x32 (m ((c.tc : Thread nD τ).loc main_arg3)) shapeCasts_S32_S1x32)

theorem embedded_eq : Region0.embedded (V3 (F := Ideal) m ρ) c = embedding m c := by
  show affine (R := 100000) (K := 22) (C := 32) (W3 m ρ c (Proc.devRef .tc main_arg0)) (W3 m ρ c (Proc.devRef .tc main_arg2))
    (W3 m ρ c (Proc.devRef .tc main_v32)) = _
  rw [entry_x, entry_we, entry_be]

theorem exit0_embedding : W4 (F := Ideal) m ρ c (Proc.devRef .tc main_v41_0) = embedding m c :=
  ((W4_arr m ρ c 4).trans (Region0.final_4 (V3 m ρ) c)).trans (embedded_eq m ρ c)

theorem exit0_product : W4 (F := Ideal) m ρ c (Proc.devRef .tc main_v41_1)
    = times (R := 100000) (K := 32) (C := 32) (embedding m c) (m ((c.tc : Thread nD τ).loc main_arg4)) := by
  refine ((W4_arr m ρ c 5).trans (Region0.final_5 (V3 m ρ) c)).trans ?_
  rw [embedded_eq]
  show times _ (W3 m ρ c (Proc.devRef .tc main_arg4)) = _
  rw [entry_w1]

theorem entry1_embedding : W5 (F := Ideal) m ρ c (Proc.devRef .tc main_v41_0) = embedding m c :=
  ((by show StableHlo.after hostOps1 (W4 m ρ c) (Proc.devRef .tc main_v41_0) = W4 m ρ c (Proc.devRef .tc main_v41_0); after_results_simp) : W5 (F := Ideal) m ρ c (Proc.devRef .tc main_v41_0) = W4 m ρ c (Proc.devRef .tc main_v41_0)).trans
    (exit0_embedding m ρ c)

theorem entry2_embedding : W7 (F := Ideal) m ρ c (Proc.devRef .tc main_v41_0) = embedding m c := by
  have h7 : W7 (F := Ideal) m ρ c (Proc.devRef .tc main_v41_0) = W6 m ρ c (Proc.devRef .tc main_v41_0) := (by show StableHlo.after hostOps2 (W6 m ρ c) (Proc.devRef .tc main_v41_0) = W6 m ρ c (Proc.devRef .tc main_v41_0); after_results_simp)
  have h6 : W6 (F := Ideal) m ρ c (Proc.devRef .tc main_v41_0) = W5 m ρ c (Proc.devRef .tc main_v41_0) :=
    (W6_arr m ρ c 2).trans (((dat1 (V5 m ρ) c).arrAt_in 2 rfl _).trans (A_eq1 (V5 m ρ) c 2))
  exact h7.trans (h6.trans (entry1_embedding m ρ c))

/-! ## The two aggregates -/

theorem first_aggregate : W5 (F := Ideal) m ρ c (Proc.devRef .tc main_v54)
    = aggregate (m ((c.tc : Thread nD τ).loc main_arg1))
        (times (R := 100000) (K := 32) (C := 32) (embedding m c) (m ((c.tc : Thread nD τ).loc main_arg4))) := by
  have h : W5 (F := Ideal) m ρ c (Proc.devRef .tc main_v54)
      = aggregateOver (W4 m ρ c (Proc.devRef .tc main_v3)) (W4 m ρ c (Proc.devRef .tc main_v6)) (W4 m ρ c (Proc.devRef .tc main_v31))
          (W4 m ρ c (Proc.devRef .tc main_v41_1)) := by
    show StableHlo.after hostOps1 (W4 m ρ c) (Proc.devRef .tc main_v54) = _
    unfold aggregateOver wrapped
    after_results_simp
  rw [h, (late_main_v3 m ρ c).2.2, (late_main_v6 m ρ c).2.2, (late_main_v31 m ρ c).2.2, entry_sources, entry_targets, entry_weights,
    exit0_product]
  rfl

/-- The second region's result: the rectified first aggregate mixed with the embedding. -/
abbrev mixedLayer : Mat 100000 32 :=
  mix (R := 100000) (K := 32) (C := 32)
    (act (R := 100000) (C := 32)
      (aggregate (m ((c.tc : Thread nD τ).loc main_arg1))
        (times (R := 100000) (K := 32) (C := 32) (embedding m c) (m ((c.tc : Thread nD τ).loc main_arg4))))
      (shapeCast S1x32 (m ((c.tc : Thread nD τ).loc main_arg5)) shapeCasts_S32_S1x32))
    (embedding m c)
    (extractStridedSlice S32x32 ![0, 0] (m ((c.tc : Thread nD τ).loc main_arg6)) slices_S64x32_S32x32_0_0)
    (extractStridedSlice S32x32 ![32, 0] (m ((c.tc : Thread nD τ).loc main_arg6)) slices_S64x32_S32x32_32_0)

theorem exit1_mixed : W6 (F := Ideal) m ρ c (Proc.devRef .tc main_v55) = mixedLayer m c := by
  refine ((W6_arr m ρ c 5).trans (Region1.final_5 (V5 m ρ) c)).trans ?_
  show mix (R := 100000) (K := 32) (C := 32)
      (act (R := 100000) (C := 32) (W5 m ρ c (Proc.devRef .tc main_v54)) (W5 m ρ c (Proc.devRef .tc main_v33)))
      (W5 m ρ c (Proc.devRef .tc main_v41_0)) (W5 m ρ c (Proc.devRef .tc main_v36)) (W5 m ρ c (Proc.devRef .tc main_v37)) = _
  rw [first_aggregate, mid_main_v33, mid_main_v36, mid_main_v37, entry1_embedding, entry_b1, entry_w2a, entry_w2b]

theorem second_aggregate : W7 (F := Ideal) m ρ c (Proc.devRef .tc main_v68)
    = aggregate (m ((c.tc : Thread nD τ).loc main_arg1)) (mixedLayer m c) := by
  have h : W7 (F := Ideal) m ρ c (Proc.devRef .tc main_v68)
      = aggregateOver (W6 m ρ c (Proc.devRef .tc main_v3)) (W6 m ρ c (Proc.devRef .tc main_v6)) (W6 m ρ c (Proc.devRef .tc main_v31))
          (W6 m ρ c (Proc.devRef .tc main_v55)) := by
    show StableHlo.after hostOps2 (W6 m ρ c) (Proc.devRef .tc main_v68) = _
    unfold aggregateOver wrapped
    after_results_simp
  rw [h, (late_main_v3 m ρ c).2.1, (late_main_v6 m ρ c).2.1, (late_main_v31 m ρ c).2.1, entry_sources, entry_targets, entry_weights,
    exit1_mixed]
  rfl

/-! ## The result -/

/-- The result buffer's final contents: the network function of the launch arrays. -/
theorem result_eq : W8 (F := Ideal) m ρ c (Proc.devRef .tc main_v69)
    = network (N := 100000) (aggregate (m ((c.tc : Thread nD τ).loc main_arg1)))
        (m ((c.tc : Thread nD τ).loc main_arg0)) (m ((c.tc : Thread nD τ).loc main_arg2))
        (shapeCast S1x32 (m ((c.tc : Thread nD τ).loc main_arg3)) shapeCasts_S32_S1x32)
        (m ((c.tc : Thread nD τ).loc main_arg4))
        (shapeCast S1x32 (m ((c.tc : Thread nD τ).loc main_arg5)) shapeCasts_S32_S1x32)
        (extractStridedSlice S32x32 ![0, 0] (m ((c.tc : Thread nD τ).loc main_arg6)) slices_S64x32_S32x32_0_0)
        (extractStridedSlice S32x32 ![32, 0] (m ((c.tc : Thread nD τ).loc main_arg6)) slices_S64x32_S32x32_32_0)
        (shapeCast S1x32 (m ((c.tc : Thread nD τ).loc main_arg7)) shapeCasts_S32_S1x32)
        (extractStridedSlice S32x1 ![0, 0] (m ((c.tc : Thread nD τ).loc main_arg8)) slices_S64x1_S32x1_0_0)
        (extractStridedSlice S32x1 ![32, 0] (m ((c.tc : Thread nD τ).loc main_arg8)) slices_S64x1_S32x1_32_0)
        (shapeCast S1x1 (m ((c.tc : Thread nD τ).loc main_arg9)) shapeCasts_S1_S1x1)
        (extractStridedSlice S100000x1 ![0, 1] (m ((c.tc : Thread nD τ).loc main_arg0)) slices_S100000x22_S100000x1_0_1) := by
  refine ((W8_arr m ρ c 7).trans (Region2.final_7 (V7 m ρ) c)).trans ?_
  show readout (R := 100000) (K := 32)
      (act (R := 100000) (C := 32) (W7 m ρ c (Proc.devRef .tc main_v68)) (W7 m ρ c (Proc.devRef .tc main_v34)))
      (W7 m ρ c (Proc.devRef .tc main_v41_0)) (W7 m ρ c (Proc.devRef .tc main_v38)) (W7 m ρ c (Proc.devRef .tc main_v39))
      (W7 m ρ c (Proc.devRef .tc main_v35)) (W7 m ρ c (Proc.devRef .tc main_v40)) = _
  rw [second_aggregate, (late_main_v34 m ρ c).1, (late_main_v38 m ρ c).1, (late_main_v39 m ρ c).1, (late_main_v35 m ρ c).1,
    (late_main_v40 m ρ c).1, entry2_embedding, entry_b2, entry_wpa, entry_wpb, entry_bp, entry_xcol]
  rfl

end Cert.KernelIdeal.Fold

end
-- ==== Proof.RefSpec.lean ====
/-
  The idealized reference's result as the network function of its arguments.

  Stage by stage: the embedding is `x · We + be` with the bias as a one-row matrix; the first layer's product is its
  product with `W1`; an aggregation is the host's aggregation over the edge index array, the same operations the
  kernel's host part applies; bias and rectifier are `act`; a product with `[a | h]` laid side by side against a
  64-row matrix is the sum over the first 32 columns against its upper half plus the sum over the last 32 against its
  lower half (the one law used: a sum over 32 + 32 terms split in two); and the readout adds the feature column and
  rectifies.
-/
import proofs.«180521_j28638841930196_1_alg».proof.Proof.RefRead
import proofs.«180521_j28638841930196_1_alg».proof.Proof.Spec
import proofs.«180521_j28638841930196_1_alg».proof.Proof.Edges
import Idealize.ShloMosaic.Lib.Pipeline.Value
import Idealize.ShloMosaic.Lib.ValueIdx

set_option maxRecDepth 16384

noncomputable section

open scoped BigOperators

namespace Cert.ReferenceIdeal.Net

open Cert.ReferenceIdeal Cert.ReferenceIdeal.Gen Cert.ReferenceIdeal.ReadP Cert.GraphConv
open Idealize.ShloMosaic Idealize.ShloMosaic.ValueIdx
open Cert.KernelIdeal.Edges (sources targets wrapped degree invSqrtDegree edgeWeight aggregateOver aggregate)

variable (x0 : (⟨S100000x22, .f32⟩ : BufTy).Contents (Elt Ideal)) (x1 : (⟨S2x1600000, .i32⟩ : BufTy).Contents (Elt Ideal)) (x2 : (⟨S22x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S64x32, .f32⟩ : BufTy).Contents (Elt Ideal)) (x7 : (⟨S32, .f32⟩ : BufTy).Contents (Elt Ideal)) (x8 : (⟨S64x1, .f32⟩ : BufTy).Contents (Elt Ideal)) (x9 : (⟨S1, .f32⟩ : BufTy).Contents (Elt Ideal))

/-! ## The graph side: the reference's host operations are the ones named once for both programs -/

/- The host's folds over the 1.7 million edges stay closed throughout: every equation below applies them to equal
   arguments and never looks inside. -/
attribute [local irreducible] Host.scatterAdd Host.gather Host.rsqrt concatenate

section Graph

theorem sources_eq : val_main_v3 (F := Ideal) x1 = sources x1 := rfl
theorem targets_eq : val_main_v6 (F := Ideal) x1 = targets x1 := rfl
theorem degree_eq : val_main_v10 (F := Ideal) x1 = degree x1 := rfl
theorem invSqrtDegree_eq : val_main_v16 (F := Ideal) x1 = invSqrtDegree x1 := rfl
theorem weight1_eq : val_main_v36 (F := Ideal) x1 = edgeWeight x1 := rfl
theorem weight2_eq : val_main_v70 (F := Ideal) x1 = edgeWeight x1 := rfl

theorem aggregate1_eq : val_main_v49 (F := Ideal) x0 x1 x2 x3 x4
    = aggregate x1 (val_main_v21 (F := Ideal) x0 x2 x3 x4) := by
  unfold val_main_v49 val_main_v46 val_main_v45 val_main_v44 aggregate aggregateOver
  rw [weight1_eq]
  rfl

theorem aggregate2_eq : val_main_v83 (F := Ideal) x0 x1 x2 x3 x4 x5 x6
    = aggregate x1 (val_main_v55 (F := Ideal) x0 x1 x2 x3 x4 x5 x6) := by
  unfold val_main_v83 val_main_v80 val_main_v79 val_main_v78 aggregate aggregateOver
  rw [weight2_eq]
  rfl
end Graph

/-! ## The dense stages -/

/-! Read's index functions are the coordinate pairs they spell (an index is the pair of its coordinates). -/

theorem embed_eq : val_main_v20 (F := Ideal) x0 x2 x3 = affine (R := 100000) (K := 22) (C := 32) x0 x2 (rowOf x3) := by
  funext i
  rw [val_main_v20_apply, val_main_v17_apply, val_main_v19_apply, val_main_v18_apply]
  show (∑ k : Fin 22, x0 (lidx_main_v17 i k) * x2 (ridx_main_v17 i k)) + x3 (idx_main_v18 (idx_main_v19 i))
    = (∑ k : Fin 22, x0 (ix2 (i 0) k) * x2 (ix2 k (i 1))) + x3 (ix1 (i 1))
  refine congrArg₂ (· + ·) (Finset.sum_congr rfl fun k _ => ?_) (congrArg x3 (eq_ix1 _))
  rw [show lidx_main_v17 i k = ix2 (i 0) k from eq_ix2 _, show ridx_main_v17 i k = ix2 k (i 1) from eq_ix2 _]
  rfl

theorem product1_eq : val_main_v21 (F := Ideal) x0 x2 x3 x4 = times (R := 100000) (K := 32) (C := 32) (val_main_v20 (F := Ideal) x0 x2 x3) x4 := by
  funext i
  rw [val_main_v21_apply]
  show (∑ k : Fin 32, val_main_v20 (F := Ideal) x0 x2 x3 (lidx_main_v21 i k) * x4 (ridx_main_v21 i k))
    = ∑ k : Fin 32, val_main_v20 (F := Ideal) x0 x2 x3 (ix2 (i 0) k) * x4 (ix2 k (i 1))
  refine Finset.sum_congr rfl fun k _ => ?_
  rw [show lidx_main_v21 i k = ix2 (i 0) k from eq_ix2 _, show ridx_main_v21 i k = ix2 k (i 1) from eq_ix2 _]
  rfl

/-- The first layer's bias, broadcast to every row, reads the vector at the column. -/
theorem bias1_eq : val_main_v51 (F := Ideal) x5 = fun i => x5 (ix1 (i 1)) := by
  funext i
  rw [val_main_v51_apply, val_main_v50_apply]
  exact congrArg x5 (eq_ix1 _)

/-- The rectifier's zero, broadcast to every entry, is the zero word everywhere. -/
theorem zero1_eq : val_main_call1_v0 (F := Ideal) = fun _ => zeroWord := by
  funext i
  rw [val_main_call1_v0_apply, val_main_call1_cst_apply]
  exact Ideal.ofBits_def _

/-- Bias and rectifier of the first layer, on any array. -/
theorem act1_of (a : FVec Ideal S100000x32 .f32) :
    maximumf (F := Ideal) (addf (F := Ideal) a (val_main_v51 (F := Ideal) x5)) (val_main_call1_v0 (F := Ideal))
      = act (R := 100000) (C := 32) a (rowOf x5) := by
  rw [bias1_eq, zero1_eq]
  rfl

theorem act1_eq : val_main_v53 (F := Ideal) x0 x1 x2 x3 x4 x5
    = act (R := 100000) (C := 32) (val_main_v49 (F := Ideal) x0 x1 x2 x3 x4) (rowOf x5) := by
  unfold val_main_v53 val_main_v52
  exact act1_of x5 _

theorem bias2_eq : val_main_v85 (F := Ideal) x7 = fun i => x7 (ix1 (i 1)) := by
  funext i
  rw [val_main_v85_apply, val_main_v84_apply]
  exact congrArg x7 (eq_ix1 _)

theorem zero2_eq : val_main_call2_v0 (F := Ideal) = fun _ => zeroWord := by
  funext i
  rw [val_main_call2_v0_apply, val_main_call2_cst_apply]
  exact Ideal.ofBits_def _

/-- Bias and rectifier of the second layer, on any array. -/
theorem act2_of (a : FVec Ideal S100000x32 .f32) :
    maximumf (F := Ideal) (addf (F := Ideal) a (val_main_v85 (F := Ideal) x7)) (val_main_call2_v0 (F := Ideal))
      = act (R := 100000) (C := 32) a (rowOf x7) := by
  rw [bias2_eq, zero2_eq]
  rfl

theorem act2_eq : val_main_v87 (F := Ideal) x0 x1 x2 x3 x4 x5 x6 x7
    = act (R := 100000) (C := 32) (val_main_v83 (F := Ideal) x0 x1 x2 x3 x4 x5 x6) (rowOf x7) := by
  unfold val_main_v87 val_main_v86
  exact act2_of x7 _

/-- Two matrices of 32 columns side by side, times a matrix of 64 rows: the first against its upper half plus the
    second against its lower half. -/
theorem sideBySide_times {Cn : Nat} (a h : Mat 100000 32) (w : Mat (32 + 32) Cn)
    (hc : Shape.Concatenates [(⟨2, ![100000, 32]⟩ : Shape), ⟨2, ![100000, 32]⟩] ⟨2, ![100000, 64]⟩ (1 : Fin 2))
    (p : Fin 100000) (q : Fin Cn) :
    ∑ k : Fin (32 + 32), concatenate ⟨2, ![100000, 64]⟩ 1 [⟨⟨2, ![100000, 32]⟩, a⟩, ⟨⟨2, ![100000, 32]⟩, h⟩] hc (ix2 p k) * w (ix2 k q)
      = mix (R := 100000) (K := 32) (C := Cn) a h (upper (n := 32) (n' := 32) w) (lower (n := 32) (n' := 32) w) (ix2 p q) := by
  refine (sum_halves (n := 32) (n' := 32)
    (fun k => concatenate ⟨2, ![100000, 64]⟩ 1 [⟨⟨2, ![100000, 32]⟩, a⟩, ⟨⟨2, ![100000, 32]⟩, h⟩] hc (ix2 p k) * w (ix2 k q))).trans ?_
  show _ = (∑ k : Fin 32, a (ix2 p k) * w (ix2 (Fin.castAdd 32 k) q)) + (∑ k : Fin 32, h (ix2 p k) * w (ix2 (Fin.natAdd 32 k) q))
  refine congrArg₂ (· + ·) (Finset.sum_congr rfl fun k _ => ?_) (Finset.sum_congr rfl fun k _ => ?_)
  · refine congrArg₂ (· * ·) ?_ rfl
    exact concatenate_pair_apply_left (t := ⟨2, ![100000, 64]⟩) (1 : Fin 2) a h hc _ rfl (ix2 p k)
      (by intro b; match b with | ⟨0, _⟩ => rfl | ⟨1, _⟩ => rfl)
  · refine congrArg₂ (· * ·) ?_ rfl
    exact concatenate_pair_apply_right (t := ⟨2, ![100000, 64]⟩) (1 : Fin 2) a h hc _ rfl rfl (ix2 p k)
      (by intro b hb; match b, hb with | ⟨0, _⟩, _ => rfl | ⟨1, _⟩, hb => exact absurd rfl hb)
      (by show k.val + 32 = 32 + k.val; omega)

theorem mix_eq : val_main_v55 (F := Ideal) x0 x1 x2 x3 x4 x5 x6
    = mix (R := 100000) (K := 32) (C := 32) (val_main_v53 (F := Ideal) x0 x1 x2 x3 x4 x5) (val_main_v20 (F := Ideal) x0 x2 x3)
        (upper (n := 32) (n' := 32) x6) (lower (n := 32) (n' := 32) x6) := by
  funext i
  obtain ⟨p, q, rfl⟩ : ∃ (p : Fin 100000) (q : Fin 32), i = ix2 p q := ⟨i 0, i 1, eq_ix2 i⟩
  rw [val_main_v55_apply]
  refine Eq.trans (Finset.sum_congr rfl fun k _ => ?_)
    (sideBySide_times (val_main_v53 (F := Ideal) x0 x1 x2 x3 x4 x5) (val_main_v20 (F := Ideal) x0 x2 x3) x6 concatenates_S100000x32_S100000x32_S100000x64_d1 p q)
  rw [show lidx_main_v55 (ix2 p q) k = ix2 p k from eq_ix2 _, show ridx_main_v55 (ix2 p q) k = ix2 k q from eq_ix2 _]
  rfl

theorem bias3_eq : val_main_v91 (F := Ideal) x9 = fun i => x9 (ix1 (i 1)) := by
  funext i
  rw [val_main_v91_apply, val_main_v90_apply]
  -- the bias has one element: any two of its indices are equal
  refine congrArg x9 (funext fun a => ?_)
  match a with
  | ⟨0, _⟩ => exact (Subsingleton.elim _ _ : (_ : Fin 1) = _)

theorem zero3_eq : val_main_call3_v0 (F := Ideal) = fun _ => zeroWord := by
  funext i
  rw [val_main_call3_v0_apply, val_main_call3_cst_apply]
  exact Ideal.ofBits_def _

/-- The readout's product with the 64-row weight column, as its two halves. -/
theorem dot3_eq : val_main_v89 (F := Ideal) x0 x1 x2 x3 x4 x5 x6 x7 x8
    = mix (R := 100000) (K := 32) (C := 1) (val_main_v87 (F := Ideal) x0 x1 x2 x3 x4 x5 x6 x7) (val_main_v20 (F := Ideal) x0 x2 x3)
        (upper (n := 32) (n' := 32) x8) (lower (n := 32) (n' := 32) x8) := by
  funext i
  obtain ⟨p, q, rfl⟩ : ∃ (p : Fin 100000) (q : Fin 1), i = ix2 p q := ⟨i 0, i 1, eq_ix2 i⟩
  rw [val_main_v89_apply]
  refine Eq.trans (Finset.sum_congr rfl fun k _ => ?_)
    (sideBySide_times (val_main_v87 (F := Ideal) x0 x1 x2 x3 x4 x5 x6 x7) (val_main_v20 (F := Ideal) x0 x2 x3) x8 concatenates_S100000x32_S100000x32_S100000x64_d1 p q)
  rw [show lidx_main_v89 (ix2 p q) k = ix2 p k from eq_ix2 _, show ridx_main_v89 (ix2 p q) k = ix2 k q from eq_ix2 _]
  rfl

/-- The readout's outer shell — bias, feature column, rectifier — on any arrays. -/
theorem readout_of (a h : Mat 100000 32) (wa wb : Mat 32 1) (xc : FVec Ideal S100000x1 .f32) :
    maximumf (F := Ideal)
        (addf (F := Ideal) (addf (F := Ideal) (mix (R := 100000) (K := 32) (C := 1) a h wa wb : FVec Ideal S100000x1 .f32) (val_main_v91 (F := Ideal) x9)) xc)
        (val_main_call3_v0 (F := Ideal))
      = readout (R := 100000) (K := 32) a h wa wb (rowOf x9) xc := by
  rw [bias3_eq, zero3_eq]
  rfl

theorem readout_eq : val_main_v95 (F := Ideal) x0 x1 x2 x3 x4 x5 x6 x7 x8 x9
    = readout (R := 100000) (K := 32) (val_main_v87 (F := Ideal) x0 x1 x2 x3 x4 x5 x6 x7) (val_main_v20 (F := Ideal) x0 x2 x3)
        (upper (n := 32) (n' := 32) x8) (lower (n := 32) (n' := 32) x8) (rowOf x9) (val_main_v93 (F := Ideal) x0) := by
  unfold val_main_v95 val_main_v94 val_main_v92
  rw [dot3_eq]
  exact readout_of x9 _ _ _ _ _

/-! ## The whole reference -/

/-- The reference's result is the network function of its arguments over the host's aggregation. -/
theorem result_eq : val_main_v95 (F := Ideal) x0 x1 x2 x3 x4 x5 x6 x7 x8 x9
    = network (N := 100000) (aggregate x1) x0 x2 (rowOf x3) x4 (rowOf x5)
        (upper (n := 32) (n' := 32) x6) (lower (n := 32) (n' := 32) x6) (rowOf x7)
        (upper (n := 32) (n' := 32) x8) (lower (n := 32) (n' := 32) x8) (rowOf x9) (val_main_v93 (F := Ideal) x0) := by
  rw [readout_eq, act2_eq, aggregate2_eq, mix_eq, act1_eq, aggregate1_eq, product1_eq, embed_eq]
  rfl

end Cert.ReferenceIdeal.Net

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.Join.lean ====
/-
  The two idealized programs compute the same array.

  The kernel's run leaves the network function of the launch arrays in its result buffer, with the bias rows made by a
  reshape and the weight halves by row slices; the reference's run leaves the network function of its arguments, with
  the bias rows made by broadcasts and the halves read out of the 64-row matrices.  A vector reshaped to one row is
  that vector as a one-row matrix, and the slice of the first (last) 32 rows of a 64-row matrix is its upper (lower)
  half; the aggregation and the feature column are spelled by the same host operations in both programs.  So from
  memories that agree on the arguments the two results are equal, element by element, whatever the arguments are:
  no finiteness is used.
-/
import proofs.«180521_j28638841930196_1_alg».proof.Defs
import proofs.«180521_j28638841930196_1_alg».proof.Proof.Gen.Kernel
import proofs.«180521_j28638841930196_1_alg».proof.Proof.Gen.Kernel.Frame
import proofs.«180521_j28638841930196_1_alg».proof.Proof.Gen.KernelIdeal
import proofs.«180521_j28638841930196_1_alg».proof.Proof.Gen.ReferenceIdeal
import proofs.«180521_j28638841930196_1_alg».proof.Proof.Gen.Pre_finite_inputs
import proofs.«180521_j28638841930196_1_alg».proof.Proof.KernelRun
import proofs.«180521_j28638841930196_1_alg».proof.Proof.Fold
import proofs.«180521_j28638841930196_1_alg».proof.Proof.RefRun
import proofs.«180521_j28638841930196_1_alg».proof.Proof.RefRead
import proofs.«180521_j28638841930196_1_alg».proof.Proof.RefSpec
import proofs.«180521_j28638841930196_1_alg».proof.Proof.LibHostLayout

set_option maxRecDepth 16384

noncomputable section

namespace Cert.Proof.Bridge

open Cert.GraphConv Cert.KernelIdeal Cert.KernelIdeal.Gen
open Idealize.ShloMosaic Idealize.ShloMosaic.TcCoe Idealize.ShloMosaic.ValueIdx Idealize.SL.Sem

/- The host's folds over the edges stay closed: the equations below never look inside them. -/
attribute [local irreducible] Host.scatterAdd Host.gather Host.rsqrt concatenate

/-- A vector reshaped to a single row is that vector as a one-row matrix. -/
theorem reshape_row {C : Nat} (b : (⟨1, ![C]⟩ : Shape).Idx → EReal) (h : (⟨1, ![C]⟩ : Shape).ShapeCasts ⟨2, ![1, C]⟩) :
    shapeCast ⟨2, ![1, C]⟩ b h = rowOf b := by
  funext i
  obtain ⟨z, q, rfl⟩ : ∃ (z : Fin 1) (q : Fin C), i = ix2 z q := ⟨i 0, i 1, eq_ix2 i⟩
  exact Cert.HostLayout.reshape_rowvec_apply h b z q

/-- The first `n` rows sliced out of a matrix of `n + n'` rows are its upper half. -/
theorem slice_upper {n n' C : Nat} (w : Mat (n + n') C) (h : (⟨2, ![n + n', C]⟩ : Shape).Slices ![0, 0] ⟨2, ![n, C]⟩) :
    extractStridedSlice ⟨2, ![n, C]⟩ ![0, 0] w h = upper (n := n) (n' := n') w := by
  funext i
  obtain ⟨k, q, rfl⟩ : ∃ (k : Fin n) (q : Fin C), i = ix2 k q := ⟨i 0, i 1, eq_ix2 i⟩
  refine (Cert.HostLayout.slice_rows_apply 0 h w k q (by have := k.isLt; omega)).trans ?_
  exact congrArg w (funext fun a => by match a with | ⟨0, _⟩ => exact Fin.ext (Nat.zero_add _) | ⟨1, _⟩ => rfl)

/-- The last `n'` rows sliced out of a matrix of `n + n'` rows are its lower half. -/
theorem slice_lower {n n' C : Nat} (w : Mat (n + n') C) (h : (⟨2, ![n + n', C]⟩ : Shape).Slices ![n, 0] ⟨2, ![n', C]⟩) :
    extractStridedSlice ⟨2, ![n', C]⟩ ![n, 0] w h = lower (n := n) (n' := n') w := by
  funext i
  obtain ⟨k, q, rfl⟩ : ∃ (k : Fin n') (q : Fin C), i = ix2 k q := ⟨i 0, i 1, eq_ix2 i⟩
  refine (Cert.HostLayout.slice_rows_apply n h w k q (by have := k.isLt; omega)).trans ?_
  exact congrArg w (funext fun a => by match a with | ⟨0, _⟩ => rfl | ⟨1, _⟩ => rfl)

/-- The array both runs end at, from the kernel's launch memory. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v69) :=
  network (N := 100000) (Cert.KernelIdeal.Edges.aggregate (m ((c.tc : Thread Cert.KernelIdeal.nD Cert.KernelIdeal.τ).loc Cert.KernelIdeal.main_arg1)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (rowOf (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (rowOf (m ((c.tc : Thread Cert.KernelIdeal.nD Cert.KernelIdeal.τ).loc Cert.KernelIdeal.main_arg5)))
    (upper (n := 32) (n' := 32) (m ((c.tc : Thread Cert.KernelIdeal.nD Cert.KernelIdeal.τ).loc Cert.KernelIdeal.main_arg6))) (lower (n := 32) (n' := 32) (m ((c.tc : Thread Cert.KernelIdeal.nD Cert.KernelIdeal.τ).loc Cert.KernelIdeal.main_arg6))) (rowOf (m ((c.tc : Thread Cert.KernelIdeal.nD Cert.KernelIdeal.τ).loc Cert.KernelIdeal.main_arg7)))
    (upper (n := 32) (n' := 32) (m ((c.tc : Thread Cert.KernelIdeal.nD Cert.KernelIdeal.τ).loc Cert.KernelIdeal.main_arg8))) (lower (n := 32) (n' := 32) (m ((c.tc : Thread Cert.KernelIdeal.nD Cert.KernelIdeal.τ).loc Cert.KernelIdeal.main_arg8))) (rowOf (m ((c.tc : Thread Cert.KernelIdeal.nD Cert.KernelIdeal.τ).loc Cert.KernelIdeal.main_arg9)))
    (extractStridedSlice S100000x1 ![0, 1] (m ((c.tc : Thread Cert.KernelIdeal.nD Cert.KernelIdeal.τ).loc Cert.KernelIdeal.main_arg0)) slices_S100000x22_S100000x1_0_1)

/-- The kernel's fold at the result buffer is that array. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 (F := Ideal) m ρ c (Proc.devRef .tc Cert.KernelIdeal.main_v69) = result m c := by
  rw [Cert.KernelIdeal.Fold.result_eq]
  unfold result
  rw [reshape_row, reshape_row, reshape_row, reshape_row,
    slice_upper (n := 32) (n' := 32) (C := 32), slice_lower (n := 32) (n' := 32) (C := 32),
    slice_upper (n := 32) (n' := 32) (C := 1), slice_lower (n := 32) (n' := 32) (C := 1)]

end Cert.Proof.Bridge

namespace Cert.Proof.Claims

open Cert.GraphConv
open Idealize.ShloMosaic Idealize.ShloMosaic.TcCoe Idealize.SL.Sem

/- The host's folds over the edges stay closed: the closing equations apply them to equal arguments. -/
attribute [local irreducible] Host.scatterAdd Host.gather Host.rsqrt concatenate

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end, from memories agreeing on the arguments, at the network function of the arguments. -/
theorem algebraic : Cert.algebraic_KernelIdeal_ReferenceIdeal := by
  intro m ρ m' ρ' _ hagree
  refine ⟨fun c => Cert.Proof.Bridge.result m c, ?_, ?_⟩
  · exact (θ_run Cert.KernelIdeal.defs _ _).mono
      (fun r h c => ⟨(h c).1.trans (Cert.Proof.Bridge.kernel_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v95_eq, Cert.ReferenceIdeal.Net.result_eq, e0, e1, e2, e3, e4, e5, e6, e7, e8, e9]
    rfl

end Cert.Proof.Claims

end
-- ==== Proof.lean ====
/-
  A two-layer graph convolution computed by three row-tiled kernels, with the graph aggregation done by host
  operations between them, against the plain reference.

  At the ideal instance both programs compute, for node features `x`, an edge index array and the weights,

      h0  = x · We + be
      a1  = aggregate (h0 · W1)             h1 = max (a1 + b1) 0
      a2  = aggregate ([h1 | h0] · W2)      h2 = max (a2 + b2) 0
      out = max (([h2 | h0] · Wp + bp) + x[:, 1:2]) 0

  where `aggregate` gathers rows at the edges' sources, scales them by the edge weights and scatter-adds them at the
  edges' targets.  The kernels compute each dense stage on bands of 10000 rows — every stage is row-local, and a change
  of float format is the identity at the ideal instance — and split each product with a 64-row matrix into the products
  with its two halves; a sum over 32 + 32 terms is the sum of its two parts in any commutative monoid, so the two
  results agree on every extended real input and the precondition is not used.  The aggregation, the edge weights and
  the feature column are the same host operations in both programs and are never opened.
  The three frames: the two kernel programs' are the generated frame certificates; the reference's is its run with
  the result dropped.  The ideal pass rewrote nothing, so the preservation claim is trivial.
-/
import proofs.«180521_j28638841930196_1_alg».proof.Defs
import proofs.«180521_j28638841930196_1_alg».proof.Proof.Gen.Kernel
import proofs.«180521_j28638841930196_1_alg».proof.Proof.Gen.Kernel.Skeleton
import proofs.«180521_j28638841930196_1_alg».proof.Proof.Gen.Kernel.Launch
import proofs.«180521_j28638841930196_1_alg».proof.Proof.Gen.Kernel.Points
import proofs.«180521_j28638841930196_1_alg».proof.Proof.Gen.Kernel.Frame
import proofs.«180521_j28638841930196_1_alg».proof.Proof.Gen.KernelIdeal
import proofs.«180521_j28638841930196_1_alg».proof.Proof.Gen.KernelIdeal.Skeleton
import proofs.«180521_j28638841930196_1_alg».proof.Proof.Gen.KernelIdeal.Launch
import proofs.«180521_j28638841930196_1_alg».proof.Proof.Gen.KernelIdeal.Points
import proofs.«180521_j28638841930196_1_alg».proof.Proof.Gen.KernelIdeal.Frame
import proofs.«180521_j28638841930196_1_alg».proof.Proof.Gen.ReferenceIdeal
import proofs.«180521_j28638841930196_1_alg».proof.Proof.Gen.Pre_finite_inputs
import proofs.«180521_j28638841930196_1_alg».proof.Proof.Join
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal,
  Cert.Proof.Claims.preserves, Cert.Proof.Claims.algebraic⟩

end Cert.Proof

end
